-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x768 : Shape := ⟨3, ![16, 4096, 768]⟩
abbrev S64x768 : Shape := ⟨2, ![64, 768]⟩
abbrev S64 : Shape := ⟨1, ![64]⟩
abbrev S_ : Shape := ⟨0, ![]⟩

class Facts : Prop where
  bcast_S_S16x4096x768 : S_.BroadcastsInDim S16x4096x768 (![] : Fin 0 → Fin S16x4096x768.rank)
  reducesTo_S16x4096x768_S_d0_1_2 : S16x4096x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x768 .f32) (main_arg6 : FVec F S64 .f32) (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x768 .f32 := Host.absf main_arg5
  let main_cst_8 : FVec F S_ .f32 := constant S_ .f32 0x7F800000#32
  let main_v25 : FVec F S64x768 .f32 := broadcastInDim S64x768 ![] bcast_S_S64x768 main_cst_8
  let main_v26 : IVec S64x768 1 := cmpf .olt main_v24 main_v25
  let main_c_9 : IVec S_ 1 := constantI S_ 1 1#1
  let main_v27 : IVec S_ 1 := (fun x v => Host.reduce IntOp.andi x v reducesTo_S64x768_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S16x4096x768 .f32) (main_arg1 : FVec F S64x768 .f32) (main_arg2 : FVec F S64 .f32) (main_arg3 : FVec F S64x768 .f32) (main_arg4 : FVec F S64 .f32) (main_arg5 : FVec F S64x768 .f32) (main_arg6 : FVec F S64 .f32) : IVec S_ 1 :=
  let main_v0 : FVec F S16x4096x768 .f32 := Host.absf main_arg0
  let main_cst : FVec F S_ .f32 := constant S_ .f32 0x7F800000#32
  let main_v1 : FVec F S16x4096x768 .f32 := broadcastInDim S16x4096x768 ![] bcast_S_S16x4096x768 main_cst
  let main_v2 : IVec S16x4096x768 1 := cmpf .olt main_v0 main_v1
  let main_c : IVec S_ 1 := constantI S_ 1 1#1
  let main_v3 : IVec S_ 1 := (fun x v => Host.reduce IntOp.andi x v reducesTo_S16x4096x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_arg4 main_arg5 main_arg6 main_v13 main_v16
-- ==== Kernel.lean ====
abbrev S16x4096x768 : Shape := ⟨3, ![16, 4096, 768]⟩
abbrev S64x768 : Shape := ⟨2, ![64, 768]⟩
abbrev S64 : Shape := ⟨1, ![64]⟩
abbrev S768x64 : Shape := ⟨2, ![768, 64]⟩
abbrev S768x192 : Shape := ⟨2, ![768, 192]⟩
abbrev S192 : Shape := ⟨1, ![192]⟩
abbrev S16x4096x64 : Shape := ⟨3, ![16, 4096, 64]⟩
abbrev S1x4096x768 : Shape := ⟨3, ![1, 4096, 768]⟩
abbrev S1x512x64 : Shape := ⟨3, ![1, 512, 64]⟩
abbrev S4096x64 : Shape := ⟨2, ![4096, 64]⟩
abbrev S4096x768 : Shape := ⟨2, ![4096, 768]⟩
abbrev S4096x192 : Shape := ⟨2, ![4096, 192]⟩
abbrev S1x192 : Shape := ⟨2, ![1, 192]⟩
abbrev S512x64 : Shape := ⟨2, ![512, 64]⟩
abbrev S64x4096 : Shape := ⟨2, ![64, 4096]⟩
abbrev S512x4096 : Shape := ⟨2, ![512, 4096]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S16x4096x768, .f32⟩
  | .hbm, ⟨1, _⟩ => ⟨S64x768, .f32⟩
  | .hbm, ⟨2, _⟩ => ⟨S64, .f32⟩
  | .hbm, ⟨3, _⟩ => ⟨S64x768, .f32⟩
  | .hbm, ⟨4, _⟩ => ⟨S64, .f32⟩
  | .hbm, ⟨5, _⟩ => ⟨S64x768, .f32⟩
  | .hbm, ⟨6, _⟩ => ⟨S64, .f32⟩
  | .hbm, ⟨7, _⟩ => ⟨S768x64, .f32⟩
  | .hbm, ⟨8, _⟩ => ⟨S768x64, .f32⟩
  | .hbm, ⟨9, _⟩ => ⟨S768x64, .f32⟩
  | .hbm, ⟨10, _⟩ => ⟨S768x192, .f32⟩
  | .hbm, ⟨11, _⟩ => ⟨S192, .f32⟩
  | .hbm, ⟨12, _⟩ => ⟨S16x4096x64, .f32⟩
  | .local _ .vmem, ⟨0, _⟩ => ⟨S1x4096x768, .f32⟩
  | .local _ .vmem, ⟨1, _⟩ => ⟨S1x4096x768, .f32⟩
  | .local _ .vmem, ⟨2, _⟩ => ⟨S768x192, .f32⟩
  | .local _ .vmem, ⟨3, _⟩ => ⟨S192, .f32⟩
  | .local _ .vmem, ⟨4, _⟩ => ⟨S1x512x64, .f32⟩
  | .local _ .vmem, ⟨5, _⟩ => ⟨S1x512x64, .f32⟩
  | .local _ .vmem, ⟨6, _⟩ => ⟨S4096x64, .bf16⟩
  | .local _ .vmem, ⟨7, _⟩ => ⟨S4096x64, .bf16⟩
  | .local _ .vmem, ⟨8, _⟩ => ⟨S4096x64, .bf16⟩
  | _, _ => ⟨S16x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S64x768_S768x64_1_0 : S64x768.Transposes [1, 0] S768x64
  concatenates_S768x64_S768x64_S768x64_S768x192_d1 : Shape.Concatenates [S768x64, S768x64, S768x64] S768x192 1
  concatenates_S64_S64_S64_S192_d0 : Shape.Concatenates [S64, S64, S64] S192 0
  inb_S1x4096x768_S1x4096x768_0_0_0 : ∀ a, (![0, 0, 0] : Fin 3 → Nat) a + S1x4096x768.size a ≤ S1x4096x768.size a
  h_S1x4096x768 : 0 < S1x4096x768.numel
  shapeCasts_S1x4096x768_S4096x768 : S1x4096x768.ShapeCasts S4096x768
  bitsLt_bf16_f32 : FTy.bits .bf16 < FTy.bits .f32
  inb_S768x192_S768x192_0_0 : ∀ a, (![0, 0] : Fin 2 → Nat) a + S768x192.size a ≤ S768x192.size a
  h_S768x192 : 0 < S768x192.numel
  shapeCasts_S768x192_S768x192 : S768x192.ShapeCasts S768x192
  inb_S192_S192_0 : ∀ a, (![0] : Fin 1 → Nat) a + S192.size a ≤ S192.size a
  h_S192 : 0 < S192.numel
  shapeCasts_S192_S192 : S192.ShapeCasts S192
  shapeCasts_S192_S1x192 : S192.ShapeCasts S1x192
  broadcasts_S1x192_S4096x192 : S1x192.Broadcasts S4096x192
  slices_S4096x192_o0_0_S4096x64 : S4096x192.Slices ![0, 0] S4096x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  slices_S4096x192_o0_64_S4096x64 : S4096x192.Slices ![0, 64] S4096x64
  slices_S4096x192_o0_128_S4096x64 : S4096x192.Slices ![0, 128] S4096x64
  h_S512x64 : 0 < S512x64.numel
  transposes_S4096x64_p1_0_S64x4096 : S4096x64.Transposes [1, 0] S64x4096
  reduces_S512x4096_S512 : S512x4096.Reduces [1] S512
  shapeCasts_S512_S512x1 : S512.ShapeCasts S512x1
  broadcasts_S512x1_S512x4096 : S512x1.Broadcasts S512x4096
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S4096x768_S768x192_S4096x192_1_0_0_1_n_n_wf : DotDims.WF S4096x768 S768x192 S4096x192 [1] [0] [0] [1] [] []
  dot_S512x64_S64x4096_S512x4096_1_0_0_1_n_n_wf : DotDims.WF S512x64 S64x4096 S512x4096 [1] [0] [0] [1] [] []
  dot_S512x4096_S4096x64_S512x64_1_0_0_1_n_n_wf : DotDims.WF S512x4096 S4096x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x64.size a ≤ S4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x768.size a ≤ S16x4096x768.size a
  hwx0_0 : ∀ i : grid0.Coords, EltTy.bits .f32 = 32 ∨ (Rect.block (s := S16x4096x768) S1x4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x192.size a ≤ S768x192.size a
  hwx0_1 : ∀ i : grid0.Coords, EltTy.bits .f32 = 32 ∨ (Rect.block (s := S768x192) S768x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192.size a ≤ S192.size a
  hwx0_2 : ∀ i : grid0.Coords, EltTy.bits .f32 = 32 ∨ (Rect.block (s := S192) S192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S16x4096x64.size a
  hwx0_3 : ∀ i : grid0.Coords, EltTy.bits .f32 = 32 ∨ (Rect.block (s := S16x4096x64) S1x512x64.size (cc0_transform_3 i) (hinb0_3 i)).WholeWords (EltTy.packing .f32)

variable [Facts₀]

def dot_S4096x768_S768x192_S4096x192_1_0_0_1_n_n : DotDims S4096x768 S768x192 S4096x192 where
  lhsContracting := [1]
  rhsContracting := [0]
  lhsNonContracting := [0]
  rhsNonContracting := [1]
  lhsBatch := []
  rhsBatch := []
  wf := dot_S4096x768_S768x192_S4096x192_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S1x4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x768 : Shape := ⟨3, ![16, 4096, 768]⟩
abbrev S64x768 : Shape := ⟨2, ![64, 768]⟩
abbrev S64 : Shape := ⟨1, ![64]⟩
abbrev S16x4096x64 : Shape := ⟨3, ![16, 4096, 64]⟩
abbrev S1x1x64 : Shape := ⟨3, ![1, 1, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S16x4096x768, .f32⟩
  | .hbm, ⟨1, _⟩ => ⟨S64x768, .f32⟩
  | .hbm, ⟨2, _⟩ => ⟨S64, .f32⟩
  | .hbm, ⟨3, _⟩ => ⟨S64x768, .f32⟩
  | .hbm, ⟨4, _⟩ => ⟨S64, .f32⟩
  | .hbm, ⟨5, _⟩ => ⟨S64x768, .f32⟩
  | .hbm, ⟨6, _⟩ => ⟨S64, .f32⟩
  | .hbm, ⟨7, _⟩ => ⟨S16x4096x64, .f32⟩
  | .hbm, ⟨8, _⟩ => ⟨S1x1x64, .f32⟩
  | .hbm, ⟨9, _⟩ => ⟨S16x4096x64, .f32⟩
  | .hbm, ⟨10, _⟩ => ⟨S16x4096x64, .f32⟩
  | .hbm, ⟨11, _⟩ => ⟨S16x4096x64, .f32⟩
  | .hbm, ⟨12, _⟩ => ⟨S1x1x64, .f32⟩
  | .hbm, ⟨13, _⟩ => ⟨S16x4096x64, .f32⟩
  | .hbm, ⟨14, _⟩ => ⟨S16x4096x64, .f32⟩
  | .hbm, ⟨15, _⟩ => ⟨S16x4096x64, .f32⟩
  | .hbm, ⟨16, _⟩ => ⟨S1x1x64, .f32⟩
  | .hbm, ⟨17, _⟩ => ⟨S16x4096x64, .f32⟩
  | .hbm, ⟨18, _⟩ => ⟨S16x4096x64, .f32⟩
  | .hbm, ⟨19, _⟩ => ⟨S16x4096x4096, .f32⟩
  | .hbm, ⟨20, _⟩ => ⟨S_, .f32⟩
  | .hbm, ⟨21, _⟩ => ⟨S16x4096x4096, .f32⟩
  | .hbm, ⟨22, _⟩ => ⟨S16x4096x4096, .f32⟩
  | .hbm, ⟨23, _⟩ => ⟨S_, .f32⟩
  | .hbm, ⟨24, _⟩ => ⟨S16x4096, .f32⟩
  | .hbm, ⟨25, _⟩ => ⟨S_, .f32⟩
  | .hbm, ⟨26, _⟩ => ⟨S16x4096, .f32⟩
  | .hbm, ⟨27, _⟩ => ⟨S16x4096, .f32⟩
  | .hbm, ⟨28, _⟩ => ⟨S16x4096x1, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S16x4096x4096, .f32⟩
  | .hbm, ⟨36, _⟩ => ⟨S16x4096x4096, .f32⟩
  | .hbm, ⟨37, _⟩ => ⟨S16x4096x64, .f32⟩
  | _, _ => ⟨S16x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S16x4096x64_0_1_2 : S1x1x64.BroadcastsInDim S16x4096x64 (![0, 1, 2] : Fin 3 → Fin S16x4096x64.rank)
  bcast_S_S16x4096x4096 : S_.BroadcastsInDim S16x4096x4096 (![] : Fin 0 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  dot_S16x4096x768_S64x768_S16x4096x64_2_1_01_0_n_n_wf : DotDims.WF S16x4096x768 S64x768 S16x4096x64 [2] [1] [0, 1] [0] [] []
  dot_S16x4096x64_S16x4096x64_S16x4096x4096_2_2_1_1_0_0_wf : DotDims.WF S16x4096x64 S16x4096x64 S16x4096x4096 [2] [2] [1] [1] [0] [0]
  dot_S16x4096x4096_S16x4096x64_S16x4096x64_2_1_1_2_0_0_wf : DotDims.WF S16x4096x4096 S16x4096x64 S16x4096x64 [2] [1] [1] [2] [0] [0]

variable [Facts₀]

def dot_S16x4096x768_S64x768_S16x4096x64_2_1_01_0_n_n : DotDims S16x4096x768 S64x768 S16x4096x64 where
  lhsContracting := [2]
  rhsContracting := [1]
  lhsNonContracting := [0, 1]
  rhsNonContracting := [0]
  lhsBatch := []
  rhsBatch := []
  wf := dot_S16x4096x768_S64x768_S16x4096x64_2_1_01_0_n_n_wf
def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf
def dot_S16x4096x4096_S16x4096x64_S16x4096x64_2_1_1_2_0_0 : DotDims S16x4096x4096 S16x4096x64 S16x4096x64 where
  lhsContracting := [2]
  rhsContracting := [1]
  lhsNonContracting := [1]
  rhsNonContracting := [2]
  lhsBatch := [0]
  rhsBatch := [0]
  wf := dot_S16x4096x4096_S16x4096x64_S16x4096x64_2_1_1_2_0_0_wf

class Facts : Prop extends Facts₀ where

variable [Facts]
-- ==== Proof.KernelFrame.Shared.lean ====
/-
  The frame of the fused attention kernel's program: what every part of the argument shares.

  @main first transposes the three [64, 768] weights and concatenates them into one [768, 192] matrix, concatenates the
  three biases into one vector of 192, and then launches the kernel on a 16 × 8 grid: batch entry `b`, query tile `qi`.
  At `qi = 0` the body projects the whole [4096, 768] tile of batch entry `b` to Q, K and V and keeps them in three
  scratch buffers, which the seven later tiles of the same batch entry read back; every point then computes one
  [512, 64] tile of the result from the scratch buffers alone. So the body has two control cases (the projection is
  taken, or not), the three scratch buffers are carried from point to point, and the result window is written whole
  at every point and written back at every point.

  Here: the buffers' contents when the region is entered (after the five host operations), that none of them
  writes an argument, each window's block at a point, that an input's staging buffer holds its block at every point,
  the frame claim read off a run of the region, the branch condition in closed form over the grid, and the names of
  the staging and scratch memrefs the runs are stated over.
-/
import proofs.«176549_j33784212751011_2_alg».proof.Proof.Gen.Kernel.Launch
import proofs.«176549_j33784212751011_2_alg».proof.Proof.Gen.Kernel.Skeleton
import proofs.«176549_j33784212751011_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the three transposes and the two concatenations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the line of host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- For any proof data whose arrays are the region-entry contents, a run that ends with the embedding at its array's
    final contents (a staged input: its entry contents) and every buffer no window stages as the region found it,
    leaves the seven arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch condition -/

/-- The condition of the body's one conditional, from the grid coordinates: the query tile is the first of its batch entry. -/
abbrev cond0_0 (i : grid0.Coords) : Prop := (Scalar.cmpi .ne (Scalar.extui (Scalar.cmpi .eq (BitVec.ofNat 32 (i 1).val) 0#32)) 0#32) = 1#1
/-- It holds at the points ≡ 0 (mod 8), decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- No window is ever idle: the inputs are read and the result tile is stored at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The memrefs the runs are stated over -/

/-- One staging buffer of the result window, through which its contents are stated. -/
abbrev VO0_3 : View sig .tc .vmem S1x512x64 .f32 := (Memref.whole cc0_stg3_0 : Memref sig .tc .vmem S1x512x64 .f32).view
/-- Each window's current staging memref at point `t`, as the pipeline passes it, and its wholeness. -/
abbrev ms0_0 (t : Fin cfg0.N) : Memref sig .tc .vmem S1x4096x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x64 .f32 := win0_3.stage (cfg0.slots t 3)
abbrev hs0_3 (t : Fin cfg0.N) : (ms0_3 t).IsWhole := hstage0_3 ((cfg0.slots t 3).cast nbuf0_3)
/-- The three scratch operands (Q, K, V of the current batch entry): whole scoped buffers of the kernel's own. -/
abbrev scM0_0 : Memref sig .tc .vmem S4096x64 .bf16 := Memref.whole cc0_scratch0
abbrev scM0_1 : Memref sig .tc .vmem S4096x64 .bf16 := Memref.whole cc0_scratch1
abbrev scM0_2 : Memref sig .tc .vmem S4096x64 .bf16 := Memref.whole cc0_scratch2
/-- The same as views: what they hold is stated through these. -/
abbrev VS0_0 : View sig .tc .vmem S4096x64 .bf16 := scM0_0.view
abbrev VS0_1 : View sig .tc .vmem S4096x64 .bf16 := scM0_1.view
abbrev VS0_2 : View sig .tc .vmem S4096x64 .bf16 := scM0_2.view

/-- The class invariant with the scratch operands as memrefs owned at some contents: what the region hands the first
    point and takes back after the last. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.KernelFrame.RunFirst.lean ====
/-
  The body's run at a query tile that is the first of its batch entry (the projection is taken).

  On whole staging memrefs — the three inputs at given contents, the result tile's buffer and the three scratch buffers
  at anything — the body runs to its end: it loads the inputs, stores the three projected slices over the three scratch
  buffers, reads its 512 query rows and all of K and V back from them, and stores the attention tile over the result
  buffer. The pieces each written buffer ends with are found by the symbolic run itself and returned as the witness;
  the inputs are handed back as they were.
-/
import proofs.«176549_j33784212751011_2_alg».proof.Proof.KernelFrame.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the result buffer and in the three scratch buffers when the projection is
    taken, with the proof that the body runs to its continuation holding exactly those. -/
noncomputable def kernelRun0_A (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i)
    (x0 : Vec F S1x4096x768 .f32) (x1 : Vec F S768x192 .f32) (x2 : Vec F S192 .f32) :
    Σ' (L3 : List (View.Piece (Elt F) S1x512x64 .f32)) (LS0 : List (View.Piece (Elt F) S4096x64 .bf16)) (LS1 : List (View.Piece (Elt F) S4096x64 .bf16)), { LS2 : List (View.Piece (Elt F) S4096x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Fr

end
-- ==== Proof.KernelFrame.RunLater.lean ====
/-
  The body's run at a later query tile of a batch entry (the projection is not taken).

  On whole staging memrefs — the three inputs at given contents (not read), the result tile's buffer at anything, the
  three scratch buffers at the contents the point before left — the body runs to its end: it reads its 512 query rows
  and all of K and V from the scratch buffers and stores the attention tile over the result buffer; inputs and scratch
  are handed back as they were. The result buffer's pieces are found by the symbolic run and returned as the witness.
-/
import proofs.«176549_j33784212751011_2_alg».proof.Proof.KernelFrame.RunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's one store leaves in the result buffer when the projection is not taken, with the proof that
    the body runs to its continuation holding those, the scratch buffers untouched. -/
noncomputable def kernelRun0_B (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : ¬cond0_0 i)
    (x0 : Vec F S1x4096x768 .f32) (x1 : Vec F S768x192 .f32) (x2 : Vec F S192 .f32)
    (xs0 : Vec F S4096x64 .bf16) (xs1 : Vec F S4096x64 .bf16) (xs2 : Vec F S4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ owns (c : Thread nD τ) arg6 fullShare xs0 ∗ owns (c : Thread nD τ) arg7 fullShare xs1 ∗ owns (c : Thread nD τ) arg8 fullShare xs2) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    isplitl [HS1]
    · iexists _; isplitr; · ipureintro; exact harg7.read_unread _
      iexact HS1
    iexists _; isplitr; · ipureintro; exact harg8.read_unread _
    iexact HS2

end Cert.Kernel.Fr

end
-- ==== Proof.KernelFrame.Frame.lean ====
/-
  The frame of the fused attention kernel's program, assembled.

  What the result tile's buffer and the three scratch buffers hold after each grid point is stated by recursion on
  the point: at a first tile of a batch entry (points ≡ 0 mod 8) the projection's run says what it stored into all
  four; at a later tile the scratch buffers keep what the point before left and the result buffer takes the attention
  tile computed from them. The region invariant tracks the three scratch buffers at exactly those contents (before
  the first point they hold anything, after the last they are forgotten again). With the proof data so stated, the
  body obligation at a point is the run of the point's case, the launch is the library's frame run with a tracking
  invariant after a line of host operations, and the frame claim is read off its post.
-/
import proofs.«176549_j33784212751011_2_alg».proof.Proof.KernelFrame.RunLater

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- When the projection is taken, the one store into the result buffer covers it. -/
theorem cover0_A_3 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) (y : S1x512x64.Idx) :
    ∃ pc ∈ (kernelRun0_A c i arg2 harg2 arg3 harg3 arg4 harg4 arg5 harg5 arg6 harg6 arg7 harg7 arg8 harg8 hc0 x0 x1 x2).1, y ∈ pc.1.set :=
  View.cover_of_tiledL (kernelRun0_A c i arg2 harg2 arg3 harg3 arg4 harg4 arg5 harg5 arg6 harg6 arg7 harg7 arg8 harg8 hc0 x0 x1 x2).1 S1x512x64.size (by sl_kernel_rfl) y

/-- What that case leaves in the result buffer: its pieces read back. -/
def out0_A_3 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) : Vec F S1x512x64 .f32 :=
  VO0_3.read (Elt F) (VO0_3.writes (Elt F) VO0_3.junk (kernelRun0_A c i arg2 harg2 arg3 harg3 arg4 harg4 arg5 harg5 arg6 harg6 arg7 harg7 arg8 harg8 hc0 x0 x1 x2).1)

/-- When the projection is taken, scratch buffer 0's one whole store covers it. -/
theorem scover0_A_0 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) (y : S4096x64.Idx) :
    ∃ pc ∈ (kernelRun0_A c i arg2 harg2 arg3 harg3 arg4 harg4 arg5 harg5 arg6 harg6 arg7 harg7 arg8 harg8 hc0 x0 x1 x2).2.1, y ∈ pc.1.set :=
  View.cover_of_tiledL (kernelRun0_A c i arg2 harg2 arg3 harg3 arg4 harg4 arg5 harg5 arg6 harg6 arg7 harg7 arg8 harg8 hc0 x0 x1 x2).2.1 S4096x64.size (by sl_kernel_rfl) y

/-- What the projection leaves in scratch buffer 0: its pieces read back. -/
def sout0_A_0 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) : Vec F S4096x64 .bf16 :=
  VS0_0.read (Elt F) (VS0_0.writes (Elt F) VS0_0.junk (kernelRun0_A c i arg2 harg2 arg3 harg3 arg4 harg4 arg5 harg5 arg6 harg6 arg7 harg7 arg8 harg8 hc0 x0 x1 x2).2.1)

/-- When the projection is taken, scratch buffer 1's one whole store covers it. -/
theorem scover0_A_1 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) (y : S4096x64.Idx) :
    ∃ pc ∈ (kernelRun0_A c i arg2 harg2 arg3 harg3 arg4 harg4 arg5 harg5 arg6 harg6 arg7 harg7 arg8 harg8 hc0 x0 x1 x2).2.2.1, y ∈ pc.1.set :=
  View.cover_of_tiledL (kernelRun0_A c i arg2 harg2 arg3 harg3 arg4 harg4 arg5 harg5 arg6 harg6 arg7 harg7 arg8 harg8 hc0 x0 x1 x2).2.2.1 S4096x64.size (by sl_kernel_rfl) y

/-- What the projection leaves in scratch buffer 1: its pieces read back. -/
def sout0_A_1 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) : Vec F S4096x64 .bf16 :=
  VS0_1.read (Elt F) (VS0_1.writes (Elt F) VS0_1.junk (kernelRun0_A c i arg2 harg2 arg3 harg3 arg4 harg4 arg5 harg5 arg6 harg6 arg7 harg7 arg8 harg8 hc0 x0 x1 x2).2.2.1)

/-- When the projection is taken, scratch buffer 2's one whole store covers it. -/
theorem scover0_A_2 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) (y : S4096x64.Idx) :
    ∃ pc ∈ (kernelRun0_A c i arg2 harg2 arg3 harg3 arg4 harg4 arg5 harg5 arg6 harg6 arg7 harg7 arg8 harg8 hc0 x0 x1 x2).2.2.2.1, y ∈ pc.1.set :=
  View.cover_of_tiledL (kernelRun0_A c i arg2 harg2 arg3 harg3 arg4 harg4 arg5 harg5 arg6 harg6 arg7 harg7 arg8 harg8 hc0 x0 x1 x2).2.2.2.1 S4096x64.size (by sl_kernel_rfl) y

/-- What the projection leaves in scratch buffer 2: its pieces read back. -/
def sout0_A_2 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) : Vec F S4096x64 .bf16 :=
  VS0_2.read (Elt F) (VS0_2.writes (Elt F) VS0_2.junk (kernelRun0_A c i arg2 harg2 arg3 harg3 arg4 harg4 arg5 harg5 arg6 harg6 arg7 harg7 arg8 harg8 hc0 x0 x1 x2).2.2.2.1)

/-- When the projection is not taken, the one store into the result buffer covers it. -/
theorem cover0_B_3 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : ¬cond0_0 i) (x0 : Vec F S1x4096x768 .f32) (x1 : Vec F S768x192 .f32) (x2 : Vec F S192 .f32) (xs0 : Vec F S4096x64 .bf16) (xs1 : Vec F S4096x64 .bf16) (xs2 : Vec F S4096x64 .bf16) (y : S1x512x64.Idx) :
    ∃ pc ∈ (kernelRun0_B c i arg2 harg2 arg3 harg3 arg4 harg4 arg5 harg5 arg6 harg6 arg7 harg7 arg8 harg8 hc0 x0 x1 x2 xs0 xs1 xs2).1, y ∈ pc.1.set :=
  View.cover_of_tiledL (kernelRun0_B c i arg2 harg2 arg3 harg3 arg4 harg4 arg5 harg5 arg6 harg6 arg7 harg7 arg8 harg8 hc0 x0 x1 x2 xs0 xs1 xs2).1 S1x512x64.size (by sl_kernel_rfl) y

/-- What that case leaves in the result buffer: its pieces read back. -/
def out0_B_3 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : ¬cond0_0 i) (x0 : Vec F S1x4096x768 .f32) (x1 : Vec F S768x192 .f32) (x2 : Vec F S192 .f32) (xs0 : Vec F S4096x64 .bf16) (xs1 : Vec F S4096x64 .bf16) (xs2 : Vec F S4096x64 .bf16) : Vec F S1x512x64 .f32 :=
  VO0_3.read (Elt F) (VO0_3.writes (Elt F) VO0_3.junk (kernelRun0_B c i arg2 harg2 arg3 harg3 arg4 harg4 arg5 harg5 arg6 harg6 arg7 harg7 arg8 harg8 hc0 x0 x1 x2 xs0 xs1 xs2).1)

/-! ## What the buffers hold after each point -/

/-- After the body at position `n`: the result tile's buffer, then the three scratch buffers. At a first tile of a batch
    entry all four are what the projection's run stored; at a later tile the scratch buffers are what position `n - 1`
    left and the result buffer is that case's store, computed from them. -/
def outsAt0 (c : Dev nD) : (n : ℕ) → n < cfg0.N → Vec F S1x512x64 .f32 × Vec F S4096x64 .bf16 × Vec F S4096x64 .bf16 × Vec F S4096x64 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 8 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) ((outsAt0 c n (Nat.lt_of_succ_lt hn)).2.1) ((outsAt0 c n (Nat.lt_of_succ_lt hn)).2.2.1) ((outsAt0 c n (Nat.lt_of_succ_lt hn)).2.2.2), (outsAt0 c n (Nat.lt_of_succ_lt hn)).2.1, (outsAt0 c n (Nat.lt_of_succ_lt hn)).2.2.1, (outsAt0 c n (Nat.lt_of_succ_lt hn)).2.2.2)

/-- At a first tile of a batch entry. -/
theorem outsAt0_A (c : Dev nD) (t : Fin cfg0.N) (h0 : t.val % 8 = 0) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t), sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)) := by
  obtain ⟨n, hn⟩ := t
  cases n with
  | zero => exact rfl
  | succ n => exact (dif_pos h0).trans rfl

/-- At a later tile: over what the point before left. -/
theorem outsAt0_B (c : Dev nD) (t : Fin cfg0.N) (h0 : ¬t.val % 8 = 0) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (iblk m c 0 t) (iblk m c 1 t) (iblk m c 2 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2), (outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The region invariant -/

/-- Before position `n`: before the first point the class invariant (every scratch buffer at anything); afterwards the
    three scratch buffers at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- On core `c`: the arrays as the region finds them; after the body at point `t` each input's buffer at its block and
    the result tile's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the closed form says which case the point is in; the
    invariant hands the body the scratch buffers (at anything at the very first point, else at what the point before
    left) and takes them back at this point's contents; the result buffer is taken at anything and returned at the
    case's store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [outsAt0_A m c t h0]
    unfold out0_A_3 sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
          isplitl [HS1]
          · unfold owns; iexists _; isplitr
            swap; · iexact HS1
            ipureintro; exact View.read_writes_of_cover _ _ _ _ _ (scover0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
          unfold owns; iexists _; isplitr
          swap; · iexact HS2
          ipureintro; exact View.read_writes_of_cover _ _ _ _ _ (scover0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexists _; iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
          isplitl [HS1]
          · unfold owns; iexists _; isplitr
            swap; · iexact HS1
            ipureintro; exact View.read_writes_of_cover _ _ _ _ _ (scover0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
          unfold owns; iexists _; isplitr
          swap; · iexact HS2
          ipureintro; exact View.read_writes_of_cover _ _ _ _ _ (scover0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [outsAt0_B m c t h0]
    unfold out0_B_3; (try dsimp only)
    have hz : t.val ≠ 0 := fun hz => h0 (by rw [hz])
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩⟩
    iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (iblk m c 0 t) (iblk m c 1 t) (iblk m c 2 t) _ _ _).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (iblk m c 0 t) (iblk m c 1 t) (iblk m c 2 t) _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- From any memory with zero counters every weakly fair execution of @main terminates, the result array ends at what
    the library computes from the proof data (each block what its point wrote back) and every other unscoped buffer
    as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main terminates without a fault and leaves its seven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Fr

end
-- ==== Proof.KernelIdealFrame.Shared.lean ====
/-
  The frame of the fused attention kernel's program: what every part of the argument shares.

  @main first transposes the three [64, 768] weights and concatenates them into one [768, 192] matrix, concatenates the
  three biases into one vector of 192, and then launches the kernel on a 16 × 8 grid: batch entry `b`, query tile `qi`.
  At `qi = 0` the body projects the whole [4096, 768] tile of batch entry `b` to Q, K and V and keeps them in three
  scratch buffers, which the seven later tiles of the same batch entry read back; every point then computes one
  [512, 64] tile of the result from the scratch buffers alone. So the body has two control cases (the projection is
  taken, or not), the three scratch buffers are carried from point to point, and the result window is written whole
  at every point and written back at every point.

  Here: the buffers' contents when the region is entered (after the five host operations), that none of them
  writes an argument, each window's block at a point, that an input's staging buffer holds its block at every point,
  the frame claim read off a run of the region, the branch condition in closed form over the grid, and the names of
  the staging and scratch memrefs the runs are stated over.
-/
import proofs.«176549_j33784212751011_2_alg».proof.Proof.Gen.KernelIdeal.Launch
import proofs.«176549_j33784212751011_2_alg».proof.Proof.Gen.KernelIdeal.Skeleton
import proofs.«176549_j33784212751011_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the three transposes and the two concatenations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the line of host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- For any proof data whose arrays are the region-entry contents, a run that ends with the embedding at its array's
    final contents (a staged input: its entry contents) and every buffer no window stages as the region found it,
    leaves the seven arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch condition -/

/-- The condition of the body's one conditional, from the grid coordinates: the query tile is the first of its batch entry. -/
abbrev cond0_0 (i : grid0.Coords) : Prop := (Scalar.cmpi .ne (Scalar.extui (Scalar.cmpi .eq (BitVec.ofNat 32 (i 1).val) 0#32)) 0#32) = 1#1
/-- It holds at the points ≡ 0 (mod 8), decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- No window is ever idle: the inputs are read and the result tile is stored at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The memrefs the runs are stated over -/

/-- One staging buffer of the result window, through which its contents are stated. -/
abbrev VO0_3 : View sig .tc .vmem S1x512x64 .f32 := (Memref.whole cc0_stg3_0 : Memref sig .tc .vmem S1x512x64 .f32).view
/-- Each window's current staging memref at point `t`, as the pipeline passes it, and its wholeness. -/
abbrev ms0_0 (t : Fin cfg0.N) : Memref sig .tc .vmem S1x4096x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x64 .f32 := win0_3.stage (cfg0.slots t 3)
abbrev hs0_3 (t : Fin cfg0.N) : (ms0_3 t).IsWhole := hstage0_3 ((cfg0.slots t 3).cast nbuf0_3)
/-- The three scratch operands (Q, K, V of the current batch entry): whole scoped buffers of the kernel's own. -/
abbrev scM0_0 : Memref sig .tc .vmem S4096x64 .bf16 := Memref.whole cc0_scratch0
abbrev scM0_1 : Memref sig .tc .vmem S4096x64 .bf16 := Memref.whole cc0_scratch1
abbrev scM0_2 : Memref sig .tc .vmem S4096x64 .bf16 := Memref.whole cc0_scratch2
/-- The same as views: what they hold is stated through these. -/
abbrev VS0_0 : View sig .tc .vmem S4096x64 .bf16 := scM0_0.view
abbrev VS0_1 : View sig .tc .vmem S4096x64 .bf16 := scM0_1.view
abbrev VS0_2 : View sig .tc .vmem S4096x64 .bf16 := scM0_2.view

/-- The class invariant with the scratch operands as memrefs owned at some contents: what the region hands the first
    point and takes back after the last. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.KernelIdealFrame.RunFirst.lean ====
/-
  The body's run at a query tile that is the first of its batch entry (the projection is taken).

  On whole staging memrefs — the three inputs at given contents, the result tile's buffer and the three scratch buffers
  at anything — the body runs to its end: it loads the inputs, stores the three projected slices over the three scratch
  buffers, reads its 512 query rows and all of K and V back from them, and stores the attention tile over the result
  buffer. The pieces each written buffer ends with are found by the symbolic run itself and returned as the witness;
  the inputs are handed back as they were.
-/
import proofs.«176549_j33784212751011_2_alg».proof.Proof.KernelIdealFrame.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the result buffer and in the three scratch buffers when the projection is
    taken, with the proof that the body runs to its continuation holding exactly those. -/
noncomputable def kernelRun0_A (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i)
    (x0 : Vec F S1x4096x768 .f32) (x1 : Vec F S768x192 .f32) (x2 : Vec F S192 .f32) :
    Σ' (L3 : List (View.Piece (Elt F) S1x512x64 .f32)) (LS0 : List (View.Piece (Elt F) S4096x64 .bf16)) (LS1 : List (View.Piece (Elt F) S4096x64 .bf16)), { LS2 : List (View.Piece (Elt F) S4096x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Fr

end
-- ==== Proof.KernelIdealFrame.RunLater.lean ====
/-
  The body's run at a later query tile of a batch entry (the projection is not taken).

  On whole staging memrefs — the three inputs at given contents (not read), the result tile's buffer at anything, the
  three scratch buffers at the contents the point before left — the body runs to its end: it reads its 512 query rows
  and all of K and V from the scratch buffers and stores the attention tile over the result buffer; inputs and scratch
  are handed back as they were. The result buffer's pieces are found by the symbolic run and returned as the witness.
-/
import proofs.«176549_j33784212751011_2_alg».proof.Proof.KernelIdealFrame.RunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's one store leaves in the result buffer when the projection is not taken, with the proof that
    the body runs to its continuation holding those, the scratch buffers untouched. -/
noncomputable def kernelRun0_B (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : ¬cond0_0 i)
    (x0 : Vec F S1x4096x768 .f32) (x1 : Vec F S768x192 .f32) (x2 : Vec F S192 .f32)
    (xs0 : Vec F S4096x64 .bf16) (xs1 : Vec F S4096x64 .bf16) (xs2 : Vec F S4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ owns (c : Thread nD τ) arg6 fullShare xs0 ∗ owns (c : Thread nD τ) arg7 fullShare xs1 ∗ owns (c : Thread nD τ) arg8 fullShare xs2) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    isplitl [HS1]
    · iexists _; isplitr; · ipureintro; exact harg7.read_unread _
      iexact HS1
    iexists _; isplitr; · ipureintro; exact harg8.read_unread _
    iexact HS2

end Cert.KernelIdeal.Fr

end
-- ==== Proof.KernelIdealFrame.Frame.lean ====
/-
  The frame of the fused attention kernel's program, assembled.

  What the result tile's buffer and the three scratch buffers hold after each grid point is stated by recursion on
  the point: at a first tile of a batch entry (points ≡ 0 mod 8) the projection's run says what it stored into all
  four; at a later tile the scratch buffers keep what the point before left and the result buffer takes the attention
  tile computed from them. The region invariant tracks the three scratch buffers at exactly those contents (before
  the first point they hold anything, after the last they are forgotten again). With the proof data so stated, the
  body obligation at a point is the run of the point's case, the launch is the library's frame run with a tracking
  invariant after a line of host operations, and the frame claim is read off its post.
-/
import proofs.«176549_j33784212751011_2_alg».proof.Proof.KernelIdealFrame.RunLater

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- When the projection is taken, the one store into the result buffer covers it. -/
theorem cover0_A_3 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) (y : S1x512x64.Idx) :
    ∃ pc ∈ (kernelRun0_A c i arg2 harg2 arg3 harg3 arg4 harg4 arg5 harg5 arg6 harg6 arg7 harg7 arg8 harg8 hc0 x0 x1 x2).1, y ∈ pc.1.set :=
  View.cover_of_tiledL (kernelRun0_A c i arg2 harg2 arg3 harg3 arg4 harg4 arg5 harg5 arg6 harg6 arg7 harg7 arg8 harg8 hc0 x0 x1 x2).1 S1x512x64.size (by sl_kernel_rfl) y

/-- What that case leaves in the result buffer: its pieces read back. -/
def out0_A_3 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) : Vec F S1x512x64 .f32 :=
  VO0_3.read (Elt F) (VO0_3.writes (Elt F) VO0_3.junk (kernelRun0_A c i arg2 harg2 arg3 harg3 arg4 harg4 arg5 harg5 arg6 harg6 arg7 harg7 arg8 harg8 hc0 x0 x1 x2).1)

/-- When the projection is taken, scratch buffer 0's one whole store covers it. -/
theorem scover0_A_0 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) (y : S4096x64.Idx) :
    ∃ pc ∈ (kernelRun0_A c i arg2 harg2 arg3 harg3 arg4 harg4 arg5 harg5 arg6 harg6 arg7 harg7 arg8 harg8 hc0 x0 x1 x2).2.1, y ∈ pc.1.set :=
  View.cover_of_tiledL (kernelRun0_A c i arg2 harg2 arg3 harg3 arg4 harg4 arg5 harg5 arg6 harg6 arg7 harg7 arg8 harg8 hc0 x0 x1 x2).2.1 S4096x64.size (by sl_kernel_rfl) y

/-- What the projection leaves in scratch buffer 0: its pieces read back. -/
def sout0_A_0 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) : Vec F S4096x64 .bf16 :=
  VS0_0.read (Elt F) (VS0_0.writes (Elt F) VS0_0.junk (kernelRun0_A c i arg2 harg2 arg3 harg3 arg4 harg4 arg5 harg5 arg6 harg6 arg7 harg7 arg8 harg8 hc0 x0 x1 x2).2.1)

/-- When the projection is taken, scratch buffer 1's one whole store covers it. -/
theorem scover0_A_1 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) (y : S4096x64.Idx) :
    ∃ pc ∈ (kernelRun0_A c i arg2 harg2 arg3 harg3 arg4 harg4 arg5 harg5 arg6 harg6 arg7 harg7 arg8 harg8 hc0 x0 x1 x2).2.2.1, y ∈ pc.1.set :=
  View.cover_of_tiledL (kernelRun0_A c i arg2 harg2 arg3 harg3 arg4 harg4 arg5 harg5 arg6 harg6 arg7 harg7 arg8 harg8 hc0 x0 x1 x2).2.2.1 S4096x64.size (by sl_kernel_rfl) y

/-- What the projection leaves in scratch buffer 1: its pieces read back. -/
def sout0_A_1 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) : Vec F S4096x64 .bf16 :=
  VS0_1.read (Elt F) (VS0_1.writes (Elt F) VS0_1.junk (kernelRun0_A c i arg2 harg2 arg3 harg3 arg4 harg4 arg5 harg5 arg6 harg6 arg7 harg7 arg8 harg8 hc0 x0 x1 x2).2.2.1)

/-- When the projection is taken, scratch buffer 2's one whole store covers it. -/
theorem scover0_A_2 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) (y : S4096x64.Idx) :
    ∃ pc ∈ (kernelRun0_A c i arg2 harg2 arg3 harg3 arg4 harg4 arg5 harg5 arg6 harg6 arg7 harg7 arg8 harg8 hc0 x0 x1 x2).2.2.2.1, y ∈ pc.1.set :=
  View.cover_of_tiledL (kernelRun0_A c i arg2 harg2 arg3 harg3 arg4 harg4 arg5 harg5 arg6 harg6 arg7 harg7 arg8 harg8 hc0 x0 x1 x2).2.2.2.1 S4096x64.size (by sl_kernel_rfl) y

/-- What the projection leaves in scratch buffer 2: its pieces read back. -/
def sout0_A_2 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) : Vec F S4096x64 .bf16 :=
  VS0_2.read (Elt F) (VS0_2.writes (Elt F) VS0_2.junk (kernelRun0_A c i arg2 harg2 arg3 harg3 arg4 harg4 arg5 harg5 arg6 harg6 arg7 harg7 arg8 harg8 hc0 x0 x1 x2).2.2.2.1)

/-- When the projection is not taken, the one store into the result buffer covers it. -/
theorem cover0_B_3 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : ¬cond0_0 i) (x0 : Vec F S1x4096x768 .f32) (x1 : Vec F S768x192 .f32) (x2 : Vec F S192 .f32) (xs0 : Vec F S4096x64 .bf16) (xs1 : Vec F S4096x64 .bf16) (xs2 : Vec F S4096x64 .bf16) (y : S1x512x64.Idx) :
    ∃ pc ∈ (kernelRun0_B c i arg2 harg2 arg3 harg3 arg4 harg4 arg5 harg5 arg6 harg6 arg7 harg7 arg8 harg8 hc0 x0 x1 x2 xs0 xs1 xs2).1, y ∈ pc.1.set :=
  View.cover_of_tiledL (kernelRun0_B c i arg2 harg2 arg3 harg3 arg4 harg4 arg5 harg5 arg6 harg6 arg7 harg7 arg8 harg8 hc0 x0 x1 x2 xs0 xs1 xs2).1 S1x512x64.size (by sl_kernel_rfl) y

/-- What that case leaves in the result buffer: its pieces read back. -/
def out0_B_3 (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : ¬cond0_0 i) (x0 : Vec F S1x4096x768 .f32) (x1 : Vec F S768x192 .f32) (x2 : Vec F S192 .f32) (xs0 : Vec F S4096x64 .bf16) (xs1 : Vec F S4096x64 .bf16) (xs2 : Vec F S4096x64 .bf16) : Vec F S1x512x64 .f32 :=
  VO0_3.read (Elt F) (VO0_3.writes (Elt F) VO0_3.junk (kernelRun0_B c i arg2 harg2 arg3 harg3 arg4 harg4 arg5 harg5 arg6 harg6 arg7 harg7 arg8 harg8 hc0 x0 x1 x2 xs0 xs1 xs2).1)

/-! ## What the buffers hold after each point -/

/-- After the body at position `n`: the result tile's buffer, then the three scratch buffers. At a first tile of a batch
    entry all four are what the projection's run stored; at a later tile the scratch buffers are what position `n - 1`
    left and the result buffer is that case's store, computed from them. -/
def outsAt0 (c : Dev nD) : (n : ℕ) → n < cfg0.N → Vec F S1x512x64 .f32 × Vec F S4096x64 .bf16 × Vec F S4096x64 .bf16 × Vec F S4096x64 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 8 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) ((outsAt0 c n (Nat.lt_of_succ_lt hn)).2.1) ((outsAt0 c n (Nat.lt_of_succ_lt hn)).2.2.1) ((outsAt0 c n (Nat.lt_of_succ_lt hn)).2.2.2), (outsAt0 c n (Nat.lt_of_succ_lt hn)).2.1, (outsAt0 c n (Nat.lt_of_succ_lt hn)).2.2.1, (outsAt0 c n (Nat.lt_of_succ_lt hn)).2.2.2)

/-- At a first tile of a batch entry. -/
theorem outsAt0_A (c : Dev nD) (t : Fin cfg0.N) (h0 : t.val % 8 = 0) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t), sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)) := by
  obtain ⟨n, hn⟩ := t
  cases n with
  | zero => exact rfl
  | succ n => exact (dif_pos h0).trans rfl

/-- At a later tile: over what the point before left. -/
theorem outsAt0_B (c : Dev nD) (t : Fin cfg0.N) (h0 : ¬t.val % 8 = 0) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (iblk m c 0 t) (iblk m c 1 t) (iblk m c 2 t) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2), (outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The region invariant -/

/-- Before position `n`: before the first point the class invariant (every scratch buffer at anything); afterwards the
    three scratch buffers at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- On core `c`: the arrays as the region finds them; after the body at point `t` each input's buffer at its block and
    the result tile's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the closed form says which case the point is in; the
    invariant hands the body the scratch buffers (at anything at the very first point, else at what the point before
    left) and takes them back at this point's contents; the result buffer is taken at anything and returned at the
    case's store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [outsAt0_A m c t h0]
    unfold out0_A_3 sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
          isplitl [HS1]
          · unfold owns; iexists _; isplitr
            swap; · iexact HS1
            ipureintro; exact View.read_writes_of_cover _ _ _ _ _ (scover0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
          unfold owns; iexists _; isplitr
          swap; · iexact HS2
          ipureintro; exact View.read_writes_of_cover _ _ _ _ _ (scover0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexists _; iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
          isplitl [HS1]
          · unfold owns; iexists _; isplitr
            swap; · iexact HS1
            ipureintro; exact View.read_writes_of_cover _ _ _ _ _ (scover0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
          unfold owns; iexists _; isplitr
          swap; · iexact HS2
          ipureintro; exact View.read_writes_of_cover _ _ _ _ _ (scover0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t))
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [outsAt0_B m c t h0]
    unfold out0_B_3; (try dsimp only)
    have hz : t.val ≠ 0 := fun hz => h0 (by rw [hz])
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩⟩
    iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (iblk m c 0 t) (iblk m c 1 t) (iblk m c 2 t) _ _ _).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (iblk m c 0 t) (iblk m c 1 t) (iblk m c 2 t) _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- From any memory with zero counters every weakly fair execution of @main terminates, the result array ends at what
    the library computes from the proof data (each block what its point wrote back) and every other unscoped buffer
    as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main terminates without a fault and leaves its seven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Fr

end
-- ==== Proof.KernelIdealValue.Pieces.lean ====
/-
  What the found pieces of the attention kernel's runs are, as the body's named payloads.

  Each buffer the body writes is written by ONE store through its whole rectangle, so what it holds afterwards is
  that store's payload: the three scratch buffers hold the three 64-column slices of x·W + bias of the point's
  input blocks; the result buffer holds the attention tile of the 512 query rows the point reads out of the first
  scratch buffer (rows 512·qi onward) against all of the second and third. At a later tile of a batch entry the
  scratch buffers are not written and the same formula holds of what the point before left. Hence, at every point,
  the result tile is the attention payload of the scratch contents after that point.
-/
import proofs.«176549_j33784212751011_2_alg».proof.Proof.KernelIdealFrame.Frame
import Idealize.ShloMosaic.Lib.Pipeline.Value

set_option maxRecDepth 16384

noncomputable section

namespace Cert.KernelIdeal.Val

open Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero1 : (![0] : Fin 1 → Nat) = fun _ => 0 := by funext a; fin_cases a; rfl
theorem zero2 : (![0, 0] : Fin 2 → Nat) = fun _ => 0 := by funext a; fin_cases a <;> rfl
theorem zero3 : (![0, 0, 0] : Fin 3 → Nat) = fun _ => 0 := by funext a; fin_cases a <;> rfl

/-- The 512 query rows a point reads: rows `512·qi` onward of a [4096, 64] array. -/
def qRows (i : grid0.Coords) (X : Vec F S4096x64 .bf16) : Vec F S512x64 .bf16 :=
  View.ld X (Rect.unit (s := S4096x64) (k0_off1 i) S512x64.size (k0_off1_inb i))

/-! ## The projection's stores -/

theorem sout0_A_0_eq (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) :
    sout0_A_0 (F := F) c i arg2 harg2 arg3 harg3 arg4 harg4 arg5 harg5 arg6 harg6 arg7 harg7 arg8 harg8 hc0 x0 x1 x2 = k0_pay2 x0 x1 x2 := by
  unfold sout0_A_0
  rw [View.read_writes_eq_canon _ _ _ (scover0_A_0 c i arg2 harg2 arg3 harg3 arg4 harg4 arg5 harg5 arg6 harg6 arg7 harg7 arg8 harg8 hc0 x0 x1 x2)]
  unfold kernelRun0_A
  dsimp only
  sl_unfold_run_names
  rw [View.canon_unit_zero (S := S4096x64) zero2]
  simp only [View.readAt_eq_ld, harg2.read_unread, harg3.read_unread, harg4.read_unread,
    View.ld_unit_zero (S := S1x4096x768) zero3, View.ld_unit_zero (S := S768x192) zero2, View.ld_unit_zero (S := S192) zero1]

theorem sout0_A_1_eq (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) :
    sout0_A_1 (F := F) c i arg2 harg2 arg3 harg3 arg4 harg4 arg5 harg5 arg6 harg6 arg7 harg7 arg8 harg8 hc0 x0 x1 x2 = k0_pay3 x0 x1 x2 := by
  unfold sout0_A_1
  rw [View.read_writes_eq_canon _ _ _ (scover0_A_1 c i arg2 harg2 arg3 harg3 arg4 harg4 arg5 harg5 arg6 harg6 arg7 harg7 arg8 harg8 hc0 x0 x1 x2)]
  unfold kernelRun0_A
  dsimp only
  sl_unfold_run_names
  rw [View.canon_unit_zero (S := S4096x64) zero2]
  simp only [View.readAt_eq_ld, harg2.read_unread, harg3.read_unread, harg4.read_unread,
    View.ld_unit_zero (S := S1x4096x768) zero3, View.ld_unit_zero (S := S768x192) zero2, View.ld_unit_zero (S := S192) zero1]

theorem sout0_A_2_eq (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) :
    sout0_A_2 (F := F) c i arg2 harg2 arg3 harg3 arg4 harg4 arg5 harg5 arg6 harg6 arg7 harg7 arg8 harg8 hc0 x0 x1 x2 = k0_pay4 x0 x1 x2 := by
  unfold sout0_A_2
  rw [View.read_writes_eq_canon _ _ _ (scover0_A_2 c i arg2 harg2 arg3 harg3 arg4 harg4 arg5 harg5 arg6 harg6 arg7 harg7 arg8 harg8 hc0 x0 x1 x2)]
  unfold kernelRun0_A
  dsimp only
  sl_unfold_run_names
  rw [View.canon_unit_zero (S := S4096x64) zero2]
  simp only [View.readAt_eq_ld, harg2.read_unread, harg3.read_unread, harg4.read_unread,
    View.ld_unit_zero (S := S1x4096x768) zero3, View.ld_unit_zero (S := S768x192) zero2, View.ld_unit_zero (S := S192) zero1]

/-! ## The result tile -/

/-- A store through the whole rectangle, read back through any view, is its payload. -/
theorem read_whole_store {κ : Kind} {sp : Space} (v : View sig κ sp S4096x64 .bf16) {off : Fin S4096x64.rank → Nat} (h : off = fun _ => 0)
    (inb : ∀ a, off a + S4096x64.size a ≤ S4096x64.size a) (w : Vec F S4096x64 .bf16) :
    v.read (Elt F) (v.writes (Elt F) v.junk [⟨Rect.unit (s := S4096x64) off S4096x64.size inb, w⟩]) = w := by
  subst h
  rw [View.read_writes_eq_canon _ _ _ (fun y => ⟨_, List.mem_singleton_self _, by
    show y ∈ (Rect.whole S4096x64).set; rw [Rect.set_whole]; exact Finset.mem_univ y⟩), View.canon_unit_zero rfl]

theorem out0_A_3_eq (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : cond0_0 i) (x0 : Vec F S1x4096x768 .f32) (x1 : Vec F S768x192 .f32) (x2 : Vec F S192 .f32) :
    out0_A_3 (F := F) c i arg2 harg2 arg3 harg3 arg4 harg4 arg5 harg5 arg6 harg6 arg7 harg7 arg8 harg8 hc0 x0 x1 x2
      = k0_pay5 (qRows i (k0_pay2 x0 x1 x2)) (k0_pay3 x0 x1 x2) (k0_pay4 x0 x1 x2) := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_run_names
  rw [View.canon_unit_zero (S := S1x512x64) zero3]
  simp only [View.readAt_eq_ld, harg2.read_unread, harg3.read_unread, harg4.read_unread,
    View.ld_unit_zero (S := S1x4096x768) zero3, View.ld_unit_zero (S := S768x192) zero2, View.ld_unit_zero (S := S192) zero1]
  rw [View.readCov_unit_zero (S := S4096x64) arg7.view zero2, View.readCov_unit_zero (S := S4096x64) arg8.view zero2,
    read_whole_store arg6.view zero2]
  rfl

theorem out0_B_3_eq (c : Dev nD) (i : grid0.Coords) (arg2 : Memref sig .tc .vmem S1x4096x768 .f32) (harg2 : arg2.IsWhole) (arg3 : Memref sig .tc .vmem S768x192 .f32) (harg3 : arg3.IsWhole) (arg4 : Memref sig .tc .vmem S192 .f32) (harg4 : arg4.IsWhole) (arg5 : Memref sig .tc .vmem S1x512x64 .f32) (harg5 : arg5.IsWhole) (arg6 : Memref sig .tc .vmem S4096x64 .bf16) (harg6 : arg6.IsWhole) (arg7 : Memref sig .tc .vmem S4096x64 .bf16) (harg7 : arg7.IsWhole) (arg8 : Memref sig .tc .vmem S4096x64 .bf16) (harg8 : arg8.IsWhole) (hc0 : ¬cond0_0 i) (x0 : Vec F S1x4096x768 .f32) (x1 : Vec F S768x192 .f32) (x2 : Vec F S192 .f32) (xs0 : Vec F S4096x64 .bf16) (xs1 : Vec F S4096x64 .bf16) (xs2 : Vec F S4096x64 .bf16) :
    out0_B_3 (F := F) c i arg2 harg2 arg3 harg3 arg4 harg4 arg5 harg5 arg6 harg6 arg7 harg7 arg8 harg8 hc0 x0 x1 x2 xs0 xs1 xs2 = k0_pay5 (qRows i xs0) xs1 xs2 := by
  unfold out0_B_3
  rw [View.read_writes_eq_canon _ _ _ (cover0_B_3 c i arg2 harg2 arg3 harg3 arg4 harg4 arg5 harg5 arg6 harg6 arg7 harg7 arg8 harg8 hc0 x0 x1 x2 xs0 xs1 xs2)]
  unfold kernelRun0_B
  dsimp only
  rw [View.canon_unit_zero (S := S1x512x64) zero3]
  simp only [View.readAt_eq_ld, harg6.read_unread, harg7.read_unread, harg8.read_unread, View.ld_unit_zero (S := S4096x64) zero2]
  rfl

/-! ## Point by point -/

/-- At every point the result tile is the attention payload of the scratch contents after that point. -/
theorem tile_eq (c : Dev nD) (t : Fin cfg0.N) :
    (outsAt0 m c t.val t.isLt).1
      = k0_pay5 (qRows (grid0.coords t) (outsAt0 m c t.val t.isLt).2.1) (outsAt0 m c t.val t.isLt).2.2.1 (outsAt0 m c t.val t.isLt).2.2.2 := by
  by_cases h0 : t.val % 8 = 0
  · rw [outsAt0_A m c t h0]; dsimp only
    rw [out0_A_3_eq, sout0_A_0_eq, sout0_A_1_eq, sout0_A_2_eq]
  · rw [outsAt0_B m c t h0]; dsimp only
    rw [out0_B_3_eq]

/-- At a first tile of a batch entry the three scratch buffers hold the projection of the point's input blocks. -/
theorem scratch_first (c : Dev nD) (t : Fin cfg0.N) (h0 : t.val % 8 = 0) :
    (outsAt0 m c t.val t.isLt).2 = (k0_pay2 (iblk m c 0 t) (iblk m c 1 t) (iblk m c 2 t), k0_pay3 (iblk m c 0 t) (iblk m c 1 t) (iblk m c 2 t), k0_pay4 (iblk m c 0 t) (iblk m c 1 t) (iblk m c 2 t)) := by
  rw [outsAt0_A m c t h0]; dsimp only
  rw [sout0_A_0_eq, sout0_A_1_eq, sout0_A_2_eq]

/-- At a later tile they hold what the point before left. -/
theorem scratch_later (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]

end Cert.KernelIdeal.Val

end
-- ==== Proof.KernelIdealValue.Layout.lean ====
/-
  The layout of the fused attention kernel's operands and result, read at coordinates.

  Before the region, the three [64, 768] weights are transposed and laid side by side along the columns of one
  [768, 192] matrix, and the three biases end to end in one vector of 192. The region runs over a 16 × 8 grid, point
  t ↦ (batch entry t / 8, query tile t % 8). The embedding is staged one batch entry at a time: element (0, s, e) of
  its block at point t is element (t / 8, s, e) of the array. The packed weight and bias are staged whole. The result
  is written back at every point in blocks of 512 rows: element (0, r, d) of the block of point t is element
  (t / 8, 512 · (t % 8) + r, d) of the array, and the 128 blocks tile it, the block holding row (n, s) being that of
  point 8 · n + s / 512. So a function G of the result's index whose restriction to each block is what that point wrote
  back is the array after the run.
-/
import proofs.«176549_j33784212751011_2_alg».proof.Proof.KernelIdealFrame.Shared
import Idealize.ShloMosaic.Lib.ValueIdx
import Idealize.ShloMosaic.Lib.Pipeline.Value
import Idealize.ShloMosaic.Lib.StableHlo.Run

set_option maxRecDepth 16384

noncomputable section

namespace Cert.KernelIdeal.Layout

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The packed weight and bias as the region finds them -/

/-- The [768, 192] matrix the region reads: the three transposed weights side by side. -/
theorem entry_w (c : Dev nD) : (V m c main_v3 : S768x192.Idx → EReal)
    = (concatenate S768x192 1 [⟨S768x64, transpose S768x64 [1, 0] (m ((c : Thread nD τ).loc main_arg1)) transposes_S64x768_S768x64_1_0⟩, ⟨S768x64, transpose S768x64 [1, 0] (m ((c : Thread nD τ).loc main_arg3)) transposes_S64x768_S768x64_1_0⟩, ⟨S768x64, transpose S768x64 [1, 0] (m ((c : Thread nD τ).loc main_arg5)) transposes_S64x768_S768x64_1_0⟩] concatenates_S768x64_S768x64_S768x64_S768x192_d1 : FVec Ideal S768x192 .f32) := by
  dsimp only [V, hostOps0]; after_results; rfl

/-- The vector of 192 the region reads: the three biases end to end. -/
theorem entry_b (c : Dev nD) : (V m c main_v4 : S192.Idx → EReal)
    = (concatenate S192 0 [⟨S64, m ((c : Thread nD τ).loc main_arg2)⟩, ⟨S64, m ((c : Thread nD τ).loc main_arg4)⟩, ⟨S64, m ((c : Thread nD τ).loc main_arg6)⟩] concatenates_S64_S64_S64_S192_d0 : FVec Ideal S192 .f32) := by
  dsimp only [V, hostOps0]; after_results; rfl

/-! ## The input windows' blocks -/

/-- The block indices of the three input windows over the grid: the embedding moves with the batch entry, the packed
    weight and bias do not move. -/
theorem idx_in : ∀ t : Fin cfg0.N, win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0 ∧ win0_2.index t (0 : Fin 1) = 0 :=
  (by decide +kernel : ∀ t : Fin grid0.N, _)

/-- Element (0, s, e) of the embedding's block at point t is element (t / 8, s, e) of the embedding. -/
theorem blk_x (c : Dev nD) (t : Fin cfg0.N) (s : Fin 4096) (e : Fin 768) :
    (iblk m c 0 t : Vec Ideal S1x4096x768 .f32) (ix3 (0 : Fin 1) s e)
      = (m ((c : Thread nD τ).loc main_arg0) : S16x4096x768.Idx → EReal) (ix3 (⟨t.val / 8, by have := t.isLt; have : cfg0.N = 128 := N_0; omega⟩ : Fin 16) s e) := by
  show V m c main_arg0 (((cfg0.win 0).blk t).view.emb (ix3 (0 : Fin 1) s e)) = _
  rw [V_main_arg0]
  obtain ⟨e0, e1, e2, -, -, -⟩ := idx_in t
  refine congrArg _ (funext fun a => Fin.ext ?_)
  match a with
  | ⟨0, _⟩ => show win0_0.index t (0 : Fin 3) * 1 + 1 * 0 = t.val / 8; omega
  | ⟨1, _⟩ => show win0_0.index t (1 : Fin 3) * 4096 + 1 * s.val = s.val; omega
  | ⟨2, _⟩ => show win0_0.index t (2 : Fin 3) * 768 + 1 * e.val = e.val; omega

/-- The packed weight is staged whole: its block at every point is the matrix. -/
theorem blk_w (c : Dev nD) (t : Fin cfg0.N) : (iblk m c 1 t : Vec Ideal S768x192 .f32) = (V m c main_v3 : S768x192.Idx → EReal) := by
  obtain ⟨-, -, -, e0, e1, -⟩ := idx_in t
  funext y
  show V m c main_v3 (((cfg0.win 1).blk t).view.emb y) = V m c main_v3 y
  refine congrArg _ (funext fun a => Fin.ext ?_)
  match a with
  | ⟨0, _⟩ => show win0_1.index t (0 : Fin 2) * 768 + 1 * (y 0).val = (y 0).val; omega
  | ⟨1, _⟩ => show win0_1.index t (1 : Fin 2) * 192 + 1 * (y 1).val = (y 1).val; omega

/-- The packed bias is staged whole: its block at every point is the vector. -/
theorem blk_b (c : Dev nD) (t : Fin cfg0.N) : (iblk m c 2 t : Vec Ideal S192 .f32) = (V m c main_v4 : S192.Idx → EReal) := by
  obtain ⟨-, -, -, -, -, e0⟩ := idx_in t
  funext y
  show V m c main_v4 (((cfg0.win 2).blk t).view.emb y) = V m c main_v4 y
  refine congrArg _ (funext fun a => Fin.ext ?_)
  match a with
  | ⟨0, _⟩ => show win0_2.index t (0 : Fin 1) * 192 + 1 * (y 0).val = (y 0).val; omega

/-! ## The result window's blocks tile the result -/

/-- The result window's block index over the grid: (batch entry, query tile, 0). -/
theorem idx_out : ∀ t : Fin cfg0.N, win0_3.index t (0 : Fin 3) = t.val / 8 ∧ win0_3.index t (1 : Fin 3) = t.val % 8 ∧ win0_3.index t (2 : Fin 3) = 0 :=
  (by decide +kernel : ∀ t : Fin grid0.N, _)

/-- An index of the result is in point t's block iff each coordinate is in the block's range on its axis. -/
theorem mem_blk_out (t : Fin cfg0.N) (i : S16x4096x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v5).slice (win0_3.rect t)).set ↔ _
  rw [View.set_slice_whole, Rect.mem_set_unit]
  exact Iff.rfl

/-- Every index (n, s, d) of the result is in the block of point 8 · n + s / 512, which is written back. -/
theorem cover_out (i : S16x4096x64.Idx) : ∃ t : Fin cfg0.N, (cfg0.win 3).flush t = true ∧ i ∈ ((cfg0.win 3).blk t).view.set := by
  have hN : cfg0.N = 128 := N_0
  have h0 : (i 0).val < 16 := (i 0).isLt
  have h1 : (i 1).val < 4096 := (i 1).isLt
  have h2 : (i 2).val < 64 := (i 2).isLt
  obtain ⟨t, tv⟩ : ∃ t : Fin cfg0.N, t.val = 8 * (i 0).val + (i 1).val / 512 := ⟨⟨8 * (i 0).val + (i 1).val / 512, by omega⟩, rfl⟩
  obtain ⟨e0, e1, e2⟩ := idx_out t
  refine ⟨t, flush0_3 t, ?_⟩
  rw [mem_blk_out]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- When what every point leaves in the result's staging buffer is the restriction of one function G of the result's
    index to that point's rows, what the point writes back is its block of G. -/
theorem flushed_eq {c : Dev nD} (dat : Pipeline.Dat τ (Elt Ideal) Unit ℕ (UR sig nD τ) ℕ cfg0 c) (G : S16x4096x64.Idx → EReal)
    (hafter : ∀ (t : Fin cfg0.N) (r : Fin 512) (d : Fin 64),
      (dat.after 3 t : Vec Ideal S1x512x64 .f32) (ix3 (0 : Fin 1) r d)
        = G (ix3 (⟨t.val / 8, by have := t.isLt; have : cfg0.N = 128 := N_0; omega⟩ : Fin 16) (⟨512 * (t.val % 8) + r.val, by have := r.isLt; omega⟩ : Fin 4096) d))
    (t : Fin cfg0.N) : dat.flushed 3 t = ((cfg0.win 3).blk t).view.read (Elt Ideal) G := by
  show (cfg0.win 3).cut (grid0.coords t) (dat.after 3 t) = _
  obtain ⟨e0, e1, e2⟩ := idx_out t
  funext j
  obtain ⟨z, r, d, rfl⟩ : ∃ (z : Fin 1) (r : Fin 512) (d : Fin 64), j = ix3 z r d := ⟨j 0, j 1, j 2, eq_ix3 (n0 := 1) (n1 := 512) (n2 := 64) j⟩
  obtain rfl : z = 0 := Subsingleton.elim _ _
  show (dat.after 3 t : Vec Ideal S1x512x64 .f32) (ix3 (0 : Fin 1) r d) = G (((cfg0.win 3).blk t).view.emb (ix3 (0 : Fin 1) r d))
  rw [hafter t r d]
  refine congrArg G (funext fun a => Fin.ext ?_)
  match a with
  | ⟨0, _⟩ => show t.val / 8 = win0_3.index t (0 : Fin 3) * 1 + 1 * 0; omega
  | ⟨1, _⟩ => show 512 * (t.val % 8) + r.val = win0_3.index t (1 : Fin 3) * 512 + 1 * r.val; omega
  | ⟨2, _⟩ => show d.val = win0_3.index t (2 : Fin 3) * 64 + 1 * d.val; omega

/-- The result array after the run is G, when every point's written-back block is G's restriction to its rows. -/
theorem arr_of_blocks {c : Dev nD} (dat : Pipeline.Dat τ (Elt Ideal) Unit ℕ (UR sig nD τ) ℕ cfg0 c) (G : S16x4096x64.Idx → EReal)
    (hafter : ∀ (t : Fin cfg0.N) (r : Fin 512) (d : Fin 64),
      (dat.after 3 t : Vec Ideal S1x512x64 .f32) (ix3 (0 : Fin 1) r d)
        = G (ix3 (⟨t.val / 8, by have := t.isLt; have : cfg0.N = 128 := N_0; omega⟩ : Fin 16) (⟨512 * (t.val % 8) + r.val, by have := r.isLt; omega⟩ : Fin 4096) d)) :
    dat.arrAt 3 cfg0.N = G :=
  dat.arrAt_eq_of_cover 3 G (fun t _ => flushed_eq dat G hafter t) cover_out

end Cert.KernelIdeal.Layout

end
-- ==== Proof.AttentionSpec.lean ====
/-
  Single-head scaled dot-product attention, stated once over the extended reals, index by index.

  For a batch entry `n`, a position `s` and a feature `d`:
    q, k, v [n, s, d] = Σ_e x[n, s, e] · w[d, e] + b[d]               (three linear projections, weights stored [out, in])
    score   [s, t]    = (Σ_d q[n, s, d] · k[n, t, d]) · 1/8            (the word 0x3E000000 is exactly 0.125 = 64^(-1/2))
  (stated per query row, since a row's weights depend on that row of q and on all of k only)
    weight  [s, t]    = exp(score[s, t] − M_s) / Σ_t' exp(score[s, t'] − M_s),   M_s the maximum over t of score[s, t]
    out     [n, s, d] = Σ_t weight[s, t] · v[n, t, d]
  The maximum is the fold of `max` from −∞ over the 4096 positions, and every sum is a finite sum over a literal index
  type, so that two programs which tile, reorder or regroup these sums denote this one function.
-/
import Idealize.ShloMosaic.PureOps.Ideal
import Idealize.ShloMosaic.Lib.ValueIdx

noncomputable section

namespace Cert.Attention

open Idealize.ShloMosaic Idealize.ShloMosaic.ValueIdx

/-- The shapes of the arguments and of the result. -/
abbrev SX : Shape := ⟨3, ![16, 4096, 768]⟩
abbrev SW : Shape := ⟨2, ![64, 768]⟩
abbrev SB : Shape := ⟨1, ![64]⟩
abbrev SO : Shape := ⟨3, ![16, 4096, 64]⟩

/-- A linear projection of the embedding: row `s` of batch entry `n` against row `d` of the weight, plus the bias. -/
def proj (x : SX.Idx → EReal) (w : SW.Idx → EReal) (b : SB.Idx → EReal) (n : Fin 16) (s : Fin 4096) (d : Fin 64) : EReal :=
  (∑ e : Fin 768, x (ix3 n s e) * w (ix2 d e)) + b (ix1 d)

/-- The scaled score of one query row against key position `t`. -/
def scoreRow (qrow : Fin 64 → EReal) (k : Fin 4096 → Fin 64 → EReal) (t : Fin 4096) : EReal :=
  (∑ d : Fin 64, qrow d * k t d) * Ideal.ofBits .f32 0x3E000000#32

/-- The maximum of a row of scores, folded from −∞. -/
def rowMax (f : Fin 4096 → EReal) : EReal :=
  (Finset.univ : Finset (Fin 4096)).fold max (Ideal.ofBits .f32 0xFF800000#32) f

/-- The softmax weight of position `t` in a row of scores, shifted by the row's maximum. -/
def weight (f : Fin 4096 → EReal) (t : Fin 4096) : EReal :=
  Ideal.div (Ideal.exp (f t - rowMax f)) (∑ t' : Fin 4096, Ideal.exp (f t' - rowMax f))

/-- One query row's attention: its softmax weights against the values' column `d`. -/
def attendRow (qrow : Fin 64 → EReal) (k v : Fin 4096 → Fin 64 → EReal) (d : Fin 64) : EReal :=
  ∑ t : Fin 4096, weight (scoreRow qrow k) t * v t d

/-- The result at coordinates. -/
def outAt (x : SX.Idx → EReal) (wq : SW.Idx → EReal) (bq : SB.Idx → EReal) (wk : SW.Idx → EReal) (bk : SB.Idx → EReal)
    (wv : SW.Idx → EReal) (bv : SB.Idx → EReal) (n : Fin 16) (s : Fin 4096) (d : Fin 64) : EReal :=
  attendRow (proj x wq bq n s) (proj x wk bk n) (proj x wv bv n) d

/-- The result array as one function of the seven argument arrays. -/
def out (x : SX.Idx → EReal) (wq : SW.Idx → EReal) (bq : SB.Idx → EReal) (wk : SW.Idx → EReal) (bk : SB.Idx → EReal)
    (wv : SW.Idx → EReal) (bv : SB.Idx → EReal) : SO.Idx → EReal :=
  fun i => outAt x wq bq wk bk wv bv (i 0) (i 1) (i 2)

theorem out_ix3 (x : SX.Idx → EReal) (wq : SW.Idx → EReal) (bq : SB.Idx → EReal) (wk : SW.Idx → EReal) (bk : SB.Idx → EReal)
    (wv : SW.Idx → EReal) (bv : SB.Idx → EReal) (n : Fin 16) (s : Fin 4096) (d : Fin 64) :
    out x wq bq wk bk wv bv (ix3 n s d) = outAt x wq bq wk bk wv bv n s d := rfl

end Cert.Attention

end
-- ==== Proof.KernelPayloads.lean ====
/-
  The kernel's five payloads read at an index, over the extended reals, and the two host
  concatenations that build the kernel's weight and bias operands.

  The kernel's first grid step projects the whole embedding block once: a [4096, 768] by [768, 192]
  product plus a row-broadcast bias, whose three 64-column bands are the queries, keys and values.
  Every grid step then attends 512 query rows against all 4096 keys and values: scores scaled by 1/8,
  a row maximum, exponentials of the shifted scores, their row sum, the quotient, and the product
  with the values. Over the extended reals a change of format is the identity and a product into the
  zero accumulator is a plain finite sum, so each payload at an index is one closed expression in the
  entries of its operands; the last one is the specification's `attendRow`.
-/
import proofs.«176549_j33784212751011_2_alg».proof.Proof.Gen.KernelIdeal.Skeleton
import proofs.«176549_j33784212751011_2_alg».proof.Proof.AttentionSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Cert.KernelIdeal Cert.KernelIdeal.Gen Idealize.ShloMosaic Idealize.ShloMosaic.ValueIdx

variable [Cert.KernelIdeal.Facts]

/-! ## The three products read at an index

Each of the kernel's products contracts one axis: the left operand's columns against the right
operand's rows. Into the zero accumulator the entry at `(p, c)` is the sum over the contracted
coordinate `k` of the left operand at `(p, k)` times the right operand at `(k, c)`. -/

theorem matmul_proj_lhs0 (i : S4096x192.Idx) (q : dot_S4096x768_S768x192_S4096x192_1_0_0_1_n_n.contr.Idx) :
    (dot_S4096x768_S768x192_S4096x192_1_0_0_1_n_n.lhsIdx i q 0).val = (i 0).val := by
  unfold DotDims.lhsIdx
  rw [dif_neg (show ¬(0 : Fin S4096x768.rank) ∈ dot_S4096x768_S768x192_S4096x192_1_0_0_1_n_n.lhsBatch by decide),
    dif_pos (show (0 : Fin S4096x768.rank) ∈ dot_S4096x768_S768x192_S4096x192_1_0_0_1_n_n.lhsNonContracting by decide)]
  rfl
theorem matmul_proj_lhs1 (i : S4096x192.Idx) (q : dot_S4096x768_S768x192_S4096x192_1_0_0_1_n_n.contr.Idx) :
    (dot_S4096x768_S768x192_S4096x192_1_0_0_1_n_n.lhsIdx i q 1).val = (q ⟨0, by decide⟩).val :=
  dot_S4096x768_S768x192_S4096x192_1_0_0_1_n_n.lhsIdx_val_of_single rfl i q
theorem matmul_proj_rhs0 (i : S4096x192.Idx) (q : dot_S4096x768_S768x192_S4096x192_1_0_0_1_n_n.contr.Idx) :
    (dot_S4096x768_S768x192_S4096x192_1_0_0_1_n_n.rhsIdx i q 0).val = (q ⟨0, by decide⟩).val :=
  dot_S4096x768_S768x192_S4096x192_1_0_0_1_n_n.rhsIdx_val_of_single rfl i q
theorem matmul_proj_rhs1 (i : S4096x192.Idx) (q : dot_S4096x768_S768x192_S4096x192_1_0_0_1_n_n.contr.Idx) :
    (dot_S4096x768_S768x192_S4096x192_1_0_0_1_n_n.rhsIdx i q 1).val = (i 1).val := by
  unfold DotDims.rhsIdx
  rw [dif_neg (show ¬(1 : Fin S768x192.rank) ∈ dot_S4096x768_S768x192_S4096x192_1_0_0_1_n_n.rhsBatch by decide),
    dif_pos (show (1 : Fin S768x192.rank) ∈ dot_S4096x768_S768x192_S4096x192_1_0_0_1_n_n.rhsNonContracting by decide)]
  rfl

/-- The projection's product, [4096, 768] by [768, 192], at `(p, c)`. -/
theorem matmul_proj_apply {φ₁ φ₂ : FTy} (l : FVec Ideal S4096x768 φ₁) (r : FVec Ideal S768x192 φ₂) (p : Fin 4096) (c : Fin 192) :
    FloatOps.matmul dot_S4096x768_S768x192_S4096x192_1_0_0_1_n_n none l r (constant S4096x192 .f32 0x00000000#32) (ix2 p c)
      = ∑ k : Fin 768, l (ix2 p k) * r (ix2 k c) := by
  rw [Ideal.matmul_constant_zero_apply, ← Equiv.sum_comp (contrEquiv1 dot_S4096x768_S768x192_S4096x192_1_0_0_1_n_n 768 rfl rfl).symm]
  refine Finset.sum_congr rfl fun k _ => ?_
  have hk := contrEquiv1_symm_val dot_S4096x768_S768x192_S4096x192_1_0_0_1_n_n 768 rfl rfl k
  have el : dot_S4096x768_S768x192_S4096x192_1_0_0_1_n_n.lhsIdx (ix2 p c) ((contrEquiv1 dot_S4096x768_S768x192_S4096x192_1_0_0_1_n_n 768 rfl rfl).symm k) = ix2 p k :=
    funext fun a => Fin.ext (by
      match a with
      | ⟨0, _⟩ => exact matmul_proj_lhs0 _ _
      | ⟨1, _⟩ => exact (matmul_proj_lhs1 _ _).trans hk)
  have er : dot_S4096x768_S768x192_S4096x192_1_0_0_1_n_n.rhsIdx (ix2 p c) ((contrEquiv1 dot_S4096x768_S768x192_S4096x192_1_0_0_1_n_n 768 rfl rfl).symm k) = ix2 k c :=
    funext fun a => Fin.ext (by
      match a with
      | ⟨0, _⟩ => exact (matmul_proj_rhs0 _ _).trans hk
      | ⟨1, _⟩ => exact matmul_proj_rhs1 _ _)
  rw [el, er]

theorem matmul_score_lhs0 (i : S512x4096.Idx) (q : dot_S512x64_S64x4096_S512x4096_1_0_0_1_n_n.contr.Idx) :
    (dot_S512x64_S64x4096_S512x4096_1_0_0_1_n_n.lhsIdx i q 0).val = (i 0).val := by
  unfold DotDims.lhsIdx
  rw [dif_neg (show ¬(0 : Fin S512x64.rank) ∈ dot_S512x64_S64x4096_S512x4096_1_0_0_1_n_n.lhsBatch by decide),
    dif_pos (show (0 : Fin S512x64.rank) ∈ dot_S512x64_S64x4096_S512x4096_1_0_0_1_n_n.lhsNonContracting by decide)]
  rfl
theorem matmul_score_lhs1 (i : S512x4096.Idx) (q : dot_S512x64_S64x4096_S512x4096_1_0_0_1_n_n.contr.Idx) :
    (dot_S512x64_S64x4096_S512x4096_1_0_0_1_n_n.lhsIdx i q 1).val = (q ⟨0, by decide⟩).val :=
  dot_S512x64_S64x4096_S512x4096_1_0_0_1_n_n.lhsIdx_val_of_single rfl i q
theorem matmul_score_rhs0 (i : S512x4096.Idx) (q : dot_S512x64_S64x4096_S512x4096_1_0_0_1_n_n.contr.Idx) :
    (dot_S512x64_S64x4096_S512x4096_1_0_0_1_n_n.rhsIdx i q 0).val = (q ⟨0, by decide⟩).val :=
  dot_S512x64_S64x4096_S512x4096_1_0_0_1_n_n.rhsIdx_val_of_single rfl i q
theorem matmul_score_rhs1 (i : S512x4096.Idx) (q : dot_S512x64_S64x4096_S512x4096_1_0_0_1_n_n.contr.Idx) :
    (dot_S512x64_S64x4096_S512x4096_1_0_0_1_n_n.rhsIdx i q 1).val = (i 1).val := by
  unfold DotDims.rhsIdx
  rw [dif_neg (show ¬(1 : Fin S64x4096.rank) ∈ dot_S512x64_S64x4096_S512x4096_1_0_0_1_n_n.rhsBatch by decide),
    dif_pos (show (1 : Fin S64x4096.rank) ∈ dot_S512x64_S64x4096_S512x4096_1_0_0_1_n_n.rhsNonContracting by decide)]
  rfl

/-- The scores' product, [512, 64] by [64, 4096], at `(p, c)`. -/
theorem matmul_score_apply {φ₁ φ₂ : FTy} (l : FVec Ideal S512x64 φ₁) (r : FVec Ideal S64x4096 φ₂) (p : Fin 512) (c : Fin 4096) :
    FloatOps.matmul dot_S512x64_S64x4096_S512x4096_1_0_0_1_n_n none l r (constant S512x4096 .f32 0x00000000#32) (ix2 p c)
      = ∑ k : Fin 64, l (ix2 p k) * r (ix2 k c) := by
  rw [Ideal.matmul_constant_zero_apply, ← Equiv.sum_comp (contrEquiv1 dot_S512x64_S64x4096_S512x4096_1_0_0_1_n_n 64 rfl rfl).symm]
  refine Finset.sum_congr rfl fun k _ => ?_
  have hk := contrEquiv1_symm_val dot_S512x64_S64x4096_S512x4096_1_0_0_1_n_n 64 rfl rfl k
  have el : dot_S512x64_S64x4096_S512x4096_1_0_0_1_n_n.lhsIdx (ix2 p c) ((contrEquiv1 dot_S512x64_S64x4096_S512x4096_1_0_0_1_n_n 64 rfl rfl).symm k) = ix2 p k :=
    funext fun a => Fin.ext (by
      match a with
      | ⟨0, _⟩ => exact matmul_score_lhs0 _ _
      | ⟨1, _⟩ => exact (matmul_score_lhs1 _ _).trans hk)
  have er : dot_S512x64_S64x4096_S512x4096_1_0_0_1_n_n.rhsIdx (ix2 p c) ((contrEquiv1 dot_S512x64_S64x4096_S512x4096_1_0_0_1_n_n 64 rfl rfl).symm k) = ix2 k c :=
    funext fun a => Fin.ext (by
      match a with
      | ⟨0, _⟩ => exact (matmul_score_rhs0 _ _).trans hk
      | ⟨1, _⟩ => exact matmul_score_rhs1 _ _)
  rw [el, er]

theorem matmul_attend_lhs0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide),
    dif_pos (show (0 : Fin S512x4096.rank) ∈ dot_S512x4096_S4096x64_S512x64_1_0_0_1_n_n.lhsNonContracting by decide)]
  rfl
theorem matmul_attend_lhs1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
theorem matmul_attend_rhs0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
theorem matmul_attend_rhs1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide),
    dif_pos (show (1 : Fin S4096x64.rank) ∈ dot_S512x4096_S4096x64_S512x64_1_0_0_1_n_n.rhsNonContracting by decide)]
  rfl

/-- The weights' product with the values, [512, 4096] by [4096, 64], at `(p, c)`. -/
theorem matmul_attend_apply {φ₁ φ₂ : FTy} (l : FVec Ideal S512x4096 φ₁) (r : FVec Ideal S4096x64 φ₂) (p : Fin 512) (c : Fin 64) :
    FloatOps.matmul dot_S512x4096_S4096x64_S512x64_1_0_0_1_n_n none l r (constant S512x64 .f32 0x00000000#32) (ix2 p c)
      = ∑ k : Fin 4096, l (ix2 p k) * r (ix2 k c) := by
  rw [Ideal.matmul_constant_zero_apply, ← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx (ix2 p c) ((contrEquiv1 dot_S512x4096_S4096x64_S512x64_1_0_0_1_n_n 4096 rfl rfl).symm k) = ix2 p k :=
    funext fun a => Fin.ext (by
      match a with
      | ⟨0, _⟩ => exact matmul_attend_lhs0 _ _
      | ⟨1, _⟩ => exact (matmul_attend_lhs1 _ _).trans hk)
  have er : dot_S512x4096_S4096x64_S512x64_1_0_0_1_n_n.rhsIdx (ix2 p c) ((contrEquiv1 dot_S512x4096_S4096x64_S512x64_1_0_0_1_n_n 4096 rfl rfl).symm k) = ix2 k c :=
    funext fun a => Fin.ext (by
      match a with
      | ⟨0, _⟩ => exact (matmul_attend_rhs0 _ _).trans hk
      | ⟨1, _⟩ => exact matmul_attend_rhs1 _ _)
  rw [el, er]

/-! ## A change of format

Over the extended reals narrowing f32 to bf16 changes nothing. -/

/-- The narrowed vector reads the operand's entry. -/
theorem truncf_bf16_apply {s : Shape} (a : FVec Ideal s .f32) (h : FTy.bits .bf16 < FTy.bits .f32) (i : s.Idx) :
    (truncf .bf16 a h : FVec Ideal s .bf16) i = a i := rfl

/-! ## The projection and its three bands

The first payload is the whole projected block, [4096, 192]: the embedding block with its leading
unit axis dropped, times the stacked weights, plus the stacked bias broadcast over the rows. The
next three are its column bands at offsets 0, 64 and 128. -/

/-- The projected block at row `s` and column `c`: row `s` of the embedding block against column `c`
    of the stacked weights, plus entry `c` of the stacked bias. -/
theorem pay1_apply (x0 : Vec Ideal S1x4096x768 .f32) (w : Vec Ideal S768x192 .f32) (b : Vec Ideal S192 .f32)
    (s : Fin 4096) (c : Fin 192) :
    k0_pay1 (F := Ideal) x0 w b (ix2 s c)
      = (∑ e : Fin 768, x0 (ix3 (0 : Fin 1) s e) * w (ix2 e c)) + b (ix1 c) := by
  unfold k0_pay1
  refine (addf_apply _ _ _).trans ?_
  congr 1
  · refine (matmul_proj_apply _ _ s c).trans ?_
    refine Finset.sum_congr rfl fun e _ => ?_
    congr 1
    · refine (truncf_bf16_apply _ _ _).trans ?_
      exact shapeCast_1ab_ab_apply x0 _ s e
    · refine (truncf_bf16_apply _ _ _).trans ?_
      exact congrFun (shapeCast_self w _) _
  · refine (broadcastTo_1b_ab_apply _ _ s c).trans ?_
    refine (shapeCast_a_1a_apply _ _ (0 : Fin 1) c).trans ?_
    exact congrFun (shapeCast_self b _) _

/-- The queries' band: columns 0 to 63 of the projected block. -/
theorem pay2_apply (x0 : Vec Ideal S1x4096x768 .f32) (w : Vec Ideal S768x192 .f32) (b : Vec Ideal S192 .f32)
    (s : Fin 4096) (d : Fin 64) :
    k0_pay2 (F := Ideal) x0 w b (ix2 s d)
      = (∑ e : Fin 768, x0 (ix3 (0 : Fin 1) s e) * w (ix2 e (⟨d.val, by omega⟩ : Fin 192)))
        + b (ix1 (⟨d.val, by omega⟩ : Fin 192)) := by
  unfold k0_pay2
  refine (congrFun (shapeCast_self _ _) _).trans ?_
  refine (truncf_bf16_apply _ _ _).trans ?_
  refine (slice2_axis1_apply 0 _ _ s d (⟨d.val, by omega⟩ : Fin 192) (Nat.zero_add _).symm).trans ?_
  exact pay1_apply x0 w b s _

/-- The keys' band: columns 64 to 127 of the projected block. -/
theorem pay3_apply (x0 : Vec Ideal S1x4096x768 .f32) (w : Vec Ideal S768x192 .f32) (b : Vec Ideal S192 .f32)
    (s : Fin 4096) (d : Fin 64) :
    k0_pay3 (F := Ideal) x0 w b (ix2 s d)
      = (∑ e : Fin 768, x0 (ix3 (0 : Fin 1) s e) * w (ix2 e (⟨64 + d.val, by omega⟩ : Fin 192)))
        + b (ix1 (⟨64 + d.val, by omega⟩ : Fin 192)) := by
  unfold k0_pay3
  refine (congrFun (shapeCast_self _ _) _).trans ?_
  refine (truncf_bf16_apply _ _ _).trans ?_
  refine (slice2_axis1_apply 64 _ _ s d (⟨64 + d.val, by omega⟩ : Fin 192) rfl).trans ?_
  exact pay1_apply x0 w b s _

/-- The values' band: columns 128 to 191 of the projected block. -/
theorem pay4_apply (x0 : Vec Ideal S1x4096x768 .f32) (w : Vec Ideal S768x192 .f32) (b : Vec Ideal S192 .f32)
    (s : Fin 4096) (d : Fin 64) :
    k0_pay4 (F := Ideal) x0 w b (ix2 s d)
      = (∑ e : Fin 768, x0 (ix3 (0 : Fin 1) s e) * w (ix2 e (⟨128 + d.val, by omega⟩ : Fin 192)))
        + b (ix1 (⟨128 + d.val, by omega⟩ : Fin 192)) := by
  unfold k0_pay4
  refine (congrFun (shapeCast_self _ _) _).trans ?_
  refine (truncf_bf16_apply _ _ _).trans ?_
  refine (slice2_axis1_apply 128 _ _ s d (⟨128 + d.val, by omega⟩ : Fin 192) rfl).trans ?_
  exact pay1_apply x0 w b s _

/-! ## The stacked weights and the stacked bias

The host lays the three [64, 768] weights, each transposed to [768, 64], side by side along the
columns, and the three [64] biases end to end: column `64·m + d` of the stacked weights is row `d` of
weight `m`, and entry `64·m + d` of the stacked bias is entry `d` of bias `m`. -/

/-- Columns 0 to 63 of the stacked weights are the queries' weight, transposed. -/
theorem wcat_q (wq wk wv : FVec Ideal S64x768 .f32) (e : Fin 768) (d : Fin 64) :
    (concatenate S768x192 1
        [⟨S768x64, transpose S768x64 [1, 0] wq Facts₀.transposes_S64x768_S768x64_1_0⟩,
         ⟨S768x64, transpose S768x64 [1, 0] wk Facts₀.transposes_S64x768_S768x64_1_0⟩,
         ⟨S768x64, transpose S768x64 [1, 0] wv Facts₀.transposes_S64x768_S768x64_1_0⟩]
        Facts₀.concatenates_S768x64_S768x64_S768x64_S768x192_d1 : FVec Ideal S768x192 .f32)
      (ix2 e (⟨d.val, by omega⟩ : Fin 192)) = wq (ix2 d e) := by
  refine (concatenate_apply_piece (t := S768x192) 1 _ _ _ 0 (by simp) S768x64 _ rfl rfl 0 rfl (ix2 e d)
    (fun b hb => ?_) ?_).trans ?_
  · match b with
    | ⟨0, _⟩ => rfl
    | ⟨1, _⟩ => exact absurd rfl hb
  · exact Nat.zero_add _
  · exact transpose_ix2_apply wq _ e d

/-- Columns 64 to 127 of the stacked weights are the keys' weight, transposed. -/
theorem wcat_k (wq wk wv : FVec Ideal S64x768 .f32) (e : Fin 768) (d : Fin 64) :
    (concatenate S768x192 1
        [⟨S768x64, transpose S768x64 [1, 0] wq Facts₀.transposes_S64x768_S768x64_1_0⟩,
         ⟨S768x64, transpose S768x64 [1, 0] wk Facts₀.transposes_S64x768_S768x64_1_0⟩,
         ⟨S768x64, transpose S768x64 [1, 0] wv Facts₀.transposes_S64x768_S768x64_1_0⟩]
        Facts₀.concatenates_S768x64_S768x64_S768x64_S768x192_d1 : FVec Ideal S768x192 .f32)
      (ix2 e (⟨64 + d.val, by omega⟩ : Fin 192)) = wk (ix2 d e) := by
  refine (concatenate_apply_piece (t := S768x192) 1 _ _ _ 1 (by simp) S768x64 _ rfl rfl 64 rfl (ix2 e d)
    (fun b hb => ?_) ?_).trans ?_
  · match b with
    | ⟨0, _⟩ => rfl
    | ⟨1, _⟩ => exact absurd rfl hb
  · rfl
  · exact transpose_ix2_apply wk _ e d

/-- Columns 128 to 191 of the stacked weights are the values' weight, transposed. -/
theorem wcat_v (wq wk wv : FVec Ideal S64x768 .f32) (e : Fin 768) (d : Fin 64) :
    (concatenate S768x192 1
        [⟨S768x64, transpose S768x64 [1, 0] wq Facts₀.transposes_S64x768_S768x64_1_0⟩,
         ⟨S768x64, transpose S768x64 [1, 0] wk Facts₀.transposes_S64x768_S768x64_1_0⟩,
         ⟨S768x64, transpose S768x64 [1, 0] wv Facts₀.transposes_S64x768_S768x64_1_0⟩]
        Facts₀.concatenates_S768x64_S768x64_S768x64_S768x192_d1 : FVec Ideal S768x192 .f32)
      (ix2 e (⟨128 + d.val, by omega⟩ : Fin 192)) = wv (ix2 d e) := by
  refine (concatenate_apply_piece (t := S768x192) 1 _ _ _ 2 (by simp) S768x64 _ rfl rfl 128 rfl (ix2 e d)
    (fun b hb => ?_) ?_).trans ?_
  · match b with
    | ⟨0, _⟩ => rfl
    | ⟨1, _⟩ => exact absurd rfl hb
  · rfl
  · exact transpose_ix2_apply wv _ e d

/-- Entries 0 to 63 of the stacked bias are the queries' bias. -/
theorem bcat_q (bq bk bv : FVec Ideal S64 .f32) (d : Fin 64) :
    (concatenate S192 0 [⟨S64, bq⟩, ⟨S64, bk⟩, ⟨S64, bv⟩] Facts₀.concatenates_S64_S64_S64_S192_d0 : FVec Ideal S192 .f32)
      (ix1 (⟨d.val, by omega⟩ : Fin 192)) = bq (ix1 d) := by
  refine concatenate_apply_piece (t := S192) 0 _ _ _ 0 (by simp) S64 _ rfl rfl 0 rfl (ix1 d)
    (fun b hb => ?_) ?_
  · match b with
    | ⟨0, _⟩ => exact absurd rfl hb
  · exact Nat.zero_add _

/-- Entries 64 to 127 of the stacked bias are the keys' bias. -/
theorem bcat_k (bq bk bv : FVec Ideal S64 .f32) (d : Fin 64) :
    (concatenate S192 0 [⟨S64, bq⟩, ⟨S64, bk⟩, ⟨S64, bv⟩] Facts₀.concatenates_S64_S64_S64_S192_d0 : FVec Ideal S192 .f32)
      (ix1 (⟨64 + d.val, by omega⟩ : Fin 192)) = bk (ix1 d) := by
  refine concatenate_apply_piece (t := S192) 0 _ _ _ 1 (by simp) S64 _ rfl rfl 64 rfl (ix1 d)
    (fun b hb => ?_) ?_
  · match b with
    | ⟨0, _⟩ => exact absurd rfl hb
  · rfl

/-- Entries 128 to 191 of the stacked bias are the values' bias. -/
theorem bcat_v (bq bk bv : FVec Ideal S64 .f32) (d : Fin 64) :
    (concatenate S192 0 [⟨S64, bq⟩, ⟨S64, bk⟩, ⟨S64, bv⟩] Facts₀.concatenates_S64_S64_S64_S192_d0 : FVec Ideal S192 .f32)
      (ix1 (⟨128 + d.val, by omega⟩ : Fin 192)) = bv (ix1 d) := by
  refine concatenate_apply_piece (t := S192) 0 _ _ _ 2 (by simp) S64 _ rfl rfl 128 rfl (ix1 d)
    (fun b hb => ?_) ?_
  · match b with
    | ⟨0, _⟩ => exact absurd rfl hb
  · rfl

/-! ## One query row's softmax weights

The scores form a [512, 4096] array. A reduction along its columns leaves a [512] vector; the kernel
views it as a column [512, 1] and broadcasts it back along the rows, so that entry `(r, t)` of the
broadcast is the reduction of row `r`. -/

/-- The source index over row `r` of the reduced shape with the column `t` put back. -/
theorem lift_row (r : Fin 512) (t : Fin 4096) :
    (Facts₀.reduces_S512x4096_S512 : S512x4096.Reduces [1] S512).lift (ix1 r) t = ix2 r t :=
  funext fun c => Fin.ext (by
    match c with
    | ⟨0, _⟩ => rfl
    | ⟨1, _⟩ => rfl)

/-- The lane maximum from the word of −∞ is the specification's row maximum. -/
theorem rowMax_apply (s : FVec Ideal S512x4096 .f32) (r : Fin 512) :
    multiReduction .maximumf [1] S512 s 0xFF800000#32 Facts₀.reduces_S512x4096_S512 (.inl rfl) rfl (ix1 r)
      = Cert.Attention.rowMax (fun t => s (ix2 r t)) := by
  refine (Ideal.multiReduction_maximumf_single s 0xFF800000#32 Facts₀.reduces_S512x4096_S512 (.inl rfl) rfl (ix1 r)).trans ?_
  unfold Cert.Attention.rowMax
  have hf : (s ∘ (Facts₀.reduces_S512x4096_S512 : S512x4096.Reduces [1] S512).lift (ix1 r))
      = fun t : Fin 4096 => s (ix2 r t) := funext fun t => congrArg s (lift_row r t)
  exact congrArg (fun f : Fin 4096 → EReal => (Finset.univ : Finset (Fin 4096)).fold max (Ideal.ofBits .f32 0xFF800000#32) f) hf

/-- The lane sum from the zero word is the sum over the row. -/
theorem rowSum_apply (x : FVec Ideal S512x4096 .f32) (r : Fin 512) :
    multiReduction .add [1] S512 x 0x00000000#32 Facts₀.reduces_S512x4096_S512 (.inl rfl) rfl (ix1 r)
      = ∑ t : Fin 4096, x (ix2 r t) := by
  refine (Ideal.multiReduction_add_single x 0x00000000#32 Facts₀.reduces_S512x4096_S512 (.inl rfl) rfl (ix1 r)).trans ?_
  exact Finset.sum_congr rfl fun t _ => congrArg x (lift_row r t)

/-- A [512] vector viewed as a column and broadcast along the rows reads its entry `r` at every `(r, t)`. -/
theorem column_broadcast_apply {α : Type} (v : S512.Idx → α) (r : Fin 512) (t : Fin 4096) :
    broadcastTo S512x4096 (shapeCast S512x1 v Facts₀.shapeCasts_S512_S512x1) Facts₀.broadcasts_S512x1_S512x4096 (ix2 r t)
      = v (ix1 r) := by
  refine (broadcastTo_apply _ _ (ix2 r t) (ix2 r (0 : Fin 1)) fun a => ?_).trans ?_
  · match a with
    | ⟨0, _⟩ => rfl
    | ⟨1, _⟩ => rfl
  · refine shapeCast_apply v _ _ (ix1 r) ?_
    rw [Shape.rowMajor_val_one, Shape.rowMajor_val_two]
    show r.val = r.val * 1 + 0
    omega

/-- The exponential of a score shifted by its row's maximum. -/
theorem expShift_apply (s : FVec Ideal S512x4096 .f32) (r : Fin 512) (t : Fin 4096) :
    exp (subf s (broadcastTo S512x4096
        (shapeCast S512x1 (multiReduction .maximumf [1] S512 s 0xFF800000#32 Facts₀.reduces_S512x4096_S512 (.inl rfl) rfl)
          Facts₀.shapeCasts_S512_S512x1) Facts₀.broadcasts_S512x1_S512x4096)) (ix2 r t)
      = Ideal.exp (s (ix2 r t) - Cert.Attention.rowMax (fun t' => s (ix2 r t'))) := by
  refine congrArg Ideal.exp ?_
  refine (subf_apply _ _ _).trans ?_
  refine congrArg (s (ix2 r t) - ·) ?_
  refine (column_broadcast_apply _ r t).trans ?_
  exact rowMax_apply s r

/-- The kernel's normalized exponentials of an array of scores are, row by row, the specification's softmax weights. -/
theorem softmax_apply (s : FVec Ideal S512x4096 .f32) (r : Fin 512) (t : Fin 4096) :
    divf
        (exp (subf s (broadcastTo S512x4096
          (shapeCast S512x1 (multiReduction .maximumf [1] S512 s 0xFF800000#32 Facts₀.reduces_S512x4096_S512 (.inl rfl) rfl)
            Facts₀.shapeCasts_S512_S512x1) Facts₀.broadcasts_S512x1_S512x4096)))
        (broadcastTo S512x4096
          (shapeCast S512x1
            (multiReduction .add [1] S512
              (exp (subf s (broadcastTo S512x4096
                (shapeCast S512x1 (multiReduction .maximumf [1] S512 s 0xFF800000#32 Facts₀.reduces_S512x4096_S512 (.inl rfl) rfl)
                  Facts₀.shapeCasts_S512_S512x1) Facts₀.broadcasts_S512x1_S512x4096)))
              0x00000000#32 Facts₀.reduces_S512x4096_S512 (.inl rfl) rfl)
            Facts₀.shapeCasts_S512_S512x1) Facts₀.broadcasts_S512x1_S512x4096) (ix2 r t)
      = Cert.Attention.weight (fun t' => s (ix2 r t')) t := by
  refine (divf_apply _ _ _).trans ?_
  unfold Cert.Attention.weight
  refine congrArg₂ Ideal.div (expShift_apply s r t) ?_
  refine (column_broadcast_apply _ r t).trans ?_
  refine (rowSum_apply _ r).trans ?_
  exact Finset.sum_congr rfl fun t' _ => expShift_apply s r t'

/-! ## The attention payload -/

/-- The scaled score of query row `r` against key `t`: the product with the transposed keys, times 1/8. -/
theorem score_apply (q : FVec Ideal S512x64 .bf16) (k : FVec Ideal S4096x64 .bf16) (r : Fin 512) (t : Fin 4096) :
    mulf
        (matmul dot_S512x64_S64x4096_S512x4096_1_0_0_1_n_n none q
          (transpose S64x4096 [1, 0] k Facts₀.transposes_S4096x64_p1_0_S64x4096) (constant S512x4096 .f32 0x00000000#32))
        (broadcast S512x4096 (Scalar.ofBits (F := Ideal) .f32 0x3E000000#32)) (ix2 r t)
      = Cert.Attention.scoreRow (fun d => q (ix2 r d)) (fun t' d => k (ix2 t' d)) t := by
  refine (mulf_apply _ _ _).trans ?_
  unfold Cert.Attention.scoreRow
  refine congrArg (· * Ideal.ofBits .f32 0x3E000000#32) ?_
  refine (matmul_score_apply _ _ r t).trans ?_
  exact Finset.sum_congr rfl fun d _ => congrArg (q (ix2 r d) * ·) (transpose_ix2_apply k _ d t)

/-- The attention payload at query row `r` and feature `d` is the specification's attention of that row
    against all keys and values. -/
theorem pay5_apply (q : Vec Ideal S512x64 .bf16) (k v : Vec Ideal S4096x64 .bf16) (r : Fin 512) (d : Fin 64) :
    k0_pay5 (F := Ideal) q k v (ix3 (0 : Fin 1) r d)
      = Cert.Attention.attendRow (fun d' => q (ix2 r d')) (fun t d' => k (ix2 t d')) (fun t d' => v (ix2 t d')) d := by
  unfold k0_pay5
  refine (shapeCast_ab_1ab_apply _ _ (0 : Fin 1) r d).trans ?_
  refine (matmul_attend_apply (φ₁ := .bf16) (φ₂ := .bf16) _ _ r d).trans ?_
  unfold Cert.Attention.attendRow
  refine Finset.sum_congr rfl fun t _ => ?_
  refine congrArg (· * v (ix2 t d)) ?_
  refine (truncf_bf16_apply _ _ _).trans ?_
  refine (softmax_apply _ r t).trans ?_
  exact congrArg (fun f => Cert.Attention.weight f t) (funext fun t' => score_apply q k r t')

end Cert.KernelIdeal.PayloadValue

end
-- ==== Proof.KernelIdealValue.Final.lean ====
/-
  The value of the fused attention kernel's program: after @main the result array holds single-head scaled
  dot-product attention of the embedding under the three linear projections, index by index.

  The grid is 16 × 8: point t works on batch entry t / 8 and on query tile t % 8. At the first tile of a batch
  entry the three scratch buffers are written with the three projections of that entry's embedding block against the
  stacked weights and bias, which are the three given weights and biases; the seven later tiles leave them as they
  are. So after every point t the scratch buffers hold the queries, keys and values of batch entry t / 8 (induction on
  the point). The result tile of point t is the attention of query rows 512 · (t % 8) onward of the first scratch
  buffer against all of the second and third, which is the specification at rows 512 · (t % 8) + r of batch entry
  t / 8. The 128 tiles cover the result array.
-/
import proofs.«176549_j33784212751011_2_alg».proof.Proof.KernelIdealValue.Pieces
import proofs.«176549_j33784212751011_2_alg».proof.Proof.KernelIdealValue.Layout
import proofs.«176549_j33784212751011_2_alg».proof.Proof.KernelPayloads
import proofs.«176549_j33784212751011_2_alg».proof.Proof.AttentionSpec

set_option maxRecDepth 16384

noncomputable section

namespace Cert.KernelIdeal.Val

open Cert.KernelIdeal.Fr Cert.KernelIdeal.Layout Cert.KernelIdeal.PayloadValue

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The grid and the query rows -/

/-- Point `t` of the 16 × 8 grid is batch entry `t / 8`, query tile `t % 8`. -/
theorem coords_eq : ∀ t : Fin cfg0.N, (grid0.coords t 0).val = t.val / 8 ∧ (grid0.coords t 1).val = t.val % 8 :=
  (by decide +kernel : ∀ t : Fin grid0.N, _)

/-- The batch entry of a point. -/
def entryOf (n : ℕ) (hn : n < cfg0.N) : Fin 16 := ⟨n / 8, by have : cfg0.N = 128 := N_0; omega⟩

/-- The query rows of tile `n` are rows `512 · n` onward. -/
theorem qRows_apply (i : grid0.Coords) (X : Vec Ideal S4096x64 .bf16) (n : ℕ) (hi : (i 1).val = n) (r : Fin 512) (d : Fin 64)
    (hr : 512 * n + r.val < 4096) :
    qRows (F := Ideal) i X (ix2 r d) = X (ix2 (⟨512 * n + r.val, hr⟩ : Fin 4096) d) := by
  unfold qRows
  refine congrArg X (funext fun a => Fin.ext ?_)
  have ho := k0_off1_eq i
  match a with
  | ⟨0, _⟩ =>
    show k0_off1 i 0 + 1 * r.val = 512 * n + r.val
    rw [ho]
    show 512 * (i 1).val + 1 * r.val = 512 * n + r.val
    omega
  | ⟨1, _⟩ =>
    show k0_off1 i 1 + 1 * d.val = d.val
    rw [ho]
    show 0 + 1 * d.val = d.val
    omega

/-! ## The scratch buffers hold the three projections of the point's batch entry -/

/-- One projection of batch entry `n` as a [4096, 64] array. -/
def projRows (x : Cert.Attention.SX.Idx → EReal) (w : Cert.Attention.SW.Idx → EReal) (b : Cert.Attention.SB.Idx → EReal)
    (n : Fin 16) : Vec Ideal S4096x64 .bf16 :=
  fun j => Cert.Attention.proj x w b n (j 0) (j 1)

theorem projRows_ix2 (x : Cert.Attention.SX.Idx → EReal) (w : Cert.Attention.SW.Idx → EReal) (b : Cert.Attention.SB.Idx → EReal)
    (n : Fin 16) (s : Fin 4096) (d : Fin 64) : projRows x w b n (ix2 s d) = Cert.Attention.proj x w b n s d := rfl

/-- At a first tile the first scratch buffer is written with the queries of the point's batch entry. -/
theorem first_q (c : Dev nD) (t : Fin cfg0.N) :
    k0_pay2 (F := Ideal) (iblk m c 0 t) (iblk m c 1 t) (iblk m c 2 t) = projRows (m ((c.tc : Thread nD τ).loc main_arg0)) (m ((c.tc : Thread nD τ).loc main_arg1)) (m ((c.tc : Thread nD τ).loc main_arg2)) (entryOf t.val t.isLt) := by
  funext j
  obtain ⟨s, d, rfl⟩ : ∃ (s : Fin 4096) (d : Fin 64), j = ix2 s d := ⟨j 0, j 1, eq_ix2 j⟩
  refine (pay2_apply (iblk m c 0 t) (iblk m c 1 t) (iblk m c 2 t) s d).trans ?_
  refine Eq.trans ?_ (projRows_ix2 _ _ _ _ s d).symm
  unfold Cert.Attention.proj
  refine congrArg₂ (· + ·) (Finset.sum_congr rfl fun e _ => congrArg₂ (· * ·) (blk_x m c t s e) ?_) ?_
  · exact (congrFun (blk_w m c t) _).trans ((congrFun (entry_w m c) _).trans (wcat_q _ _ _ e d))
  · exact (congrFun (blk_b m c t) _).trans ((congrFun (entry_b m c) _).trans (bcat_q _ _ _ d))

/-- At a first tile the second scratch buffer is written with the keys of the point's batch entry. -/
theorem first_k (c : Dev nD) (t : Fin cfg0.N) :
    k0_pay3 (F := Ideal) (iblk m c 0 t) (iblk m c 1 t) (iblk m c 2 t) = projRows (m ((c.tc : Thread nD τ).loc main_arg0)) (m ((c.tc : Thread nD τ).loc main_arg3)) (m ((c.tc : Thread nD τ).loc main_arg4)) (entryOf t.val t.isLt) := by
  funext j
  obtain ⟨s, d, rfl⟩ : ∃ (s : Fin 4096) (d : Fin 64), j = ix2 s d := ⟨j 0, j 1, eq_ix2 j⟩
  refine (pay3_apply (iblk m c 0 t) (iblk m c 1 t) (iblk m c 2 t) s d).trans ?_
  refine Eq.trans ?_ (projRows_ix2 _ _ _ _ s d).symm
  unfold Cert.Attention.proj
  refine congrArg₂ (· + ·) (Finset.sum_congr rfl fun e _ => congrArg₂ (· * ·) (blk_x m c t s e) ?_) ?_
  · exact (congrFun (blk_w m c t) _).trans ((congrFun (entry_w m c) _).trans (wcat_k _ _ _ e d))
  · exact (congrFun (blk_b m c t) _).trans ((congrFun (entry_b m c) _).trans (bcat_k _ _ _ d))

/-- At a first tile the third scratch buffer is written with the values of the point's batch entry. -/
theorem first_v (c : Dev nD) (t : Fin cfg0.N) :
    k0_pay4 (F := Ideal) (iblk m c 0 t) (iblk m c 1 t) (iblk m c 2 t) = projRows (m ((c.tc : Thread nD τ).loc main_arg0)) (m ((c.tc : Thread nD τ).loc main_arg5)) (m ((c.tc : Thread nD τ).loc main_arg6)) (entryOf t.val t.isLt) := by
  funext j
  obtain ⟨s, d, rfl⟩ : ∃ (s : Fin 4096) (d : Fin 64), j = ix2 s d := ⟨j 0, j 1, eq_ix2 j⟩
  refine (pay4_apply (iblk m c 0 t) (iblk m c 1 t) (iblk m c 2 t) s d).trans ?_
  refine Eq.trans ?_ (projRows_ix2 _ _ _ _ s d).symm
  unfold Cert.Attention.proj
  refine congrArg₂ (· + ·) (Finset.sum_congr rfl fun e _ => congrArg₂ (· * ·) (blk_x m c t s e) ?_) ?_
  · exact (congrFun (blk_w m c t) _).trans ((congrFun (entry_w m c) _).trans (wcat_v _ _ _ e d))
  · exact (congrFun (blk_b m c t) _).trans ((congrFun (entry_b m c) _).trans (bcat_v _ _ _ d))

/-- After every point the three scratch buffers hold the queries, keys and values of the point's batch entry: a first
    tile writes them, a later tile of the same entry leaves them. -/
theorem scratch_eq (c : Dev nD) : ∀ (n : ℕ) (hn : n < cfg0.N),
    (outsAt0 m c n hn).2 = (projRows (m ((c.tc : Thread nD τ).loc main_arg0)) (m ((c.tc : Thread nD τ).loc main_arg1)) (m ((c.tc : Thread nD τ).loc main_arg2)) (entryOf n hn), projRows (m ((c.tc : Thread nD τ).loc main_arg0)) (m ((c.tc : Thread nD τ).loc main_arg3)) (m ((c.tc : Thread nD τ).loc main_arg4)) (entryOf n hn), projRows (m ((c.tc : Thread nD τ).loc main_arg0)) (m ((c.tc : Thread nD τ).loc main_arg5)) (m ((c.tc : Thread nD τ).loc main_arg6)) (entryOf n hn)) := by
  intro n
  induction n with
  | zero =>
    intro hn
    refine (scratch_first m c ⟨0, hn⟩ (Nat.zero_mod _)).trans ?_
    rw [first_q m c ⟨0, hn⟩, first_k m c ⟨0, hn⟩, first_v m c ⟨0, hn⟩]
  | succ k ih =>
    intro hn
    by_cases h0 : (k + 1) % 8 = 0
    · refine (scratch_first m c ⟨k + 1, hn⟩ h0).trans ?_
      rw [first_q m c ⟨k + 1, hn⟩, first_k m c ⟨k + 1, hn⟩, first_v m c ⟨k + 1, hn⟩]
    · refine (scratch_later m c ⟨k + 1, hn⟩ h0).trans ?_
      refine (ih (Nat.lt_of_succ_lt hn)).trans ?_
      have e : entryOf k (Nat.lt_of_succ_lt hn) = entryOf (k + 1) hn := Fin.ext (by
        show k / 8 = (k + 1) / 8
        omega)
      rw [e]

/-! ## The result tile, and the result array -/

/-- The result tile of point `t` at `(r, d)` is the specification at batch entry `t / 8`, row `512 · (t % 8) + r`. -/
theorem tile_apply (c : Dev nD) (t : Fin cfg0.N) (r : Fin 512) (d : Fin 64) :
    (outsAt0 m c t.val t.isLt).1 (ix3 (0 : Fin 1) r d)
      = Cert.Attention.outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
          (⟨t.val / 8, by have := t.isLt; have : cfg0.N = 128 := N_0; omega⟩ : Fin 16)
          (⟨512 * (t.val % 8) + r.val, by have := r.isLt; omega⟩ : Fin 4096) d := by
  have hs := scratch_eq m c t.val t.isLt
  have hq : (outsAt0 m c t.val t.isLt).2.1 = projRows (m ((c.tc : Thread nD τ).loc main_arg0)) (m ((c.tc : Thread nD τ).loc main_arg1)) (m ((c.tc : Thread nD τ).loc main_arg2)) (entryOf t.val t.isLt) := congrArg (fun p => p.1) hs
  have hk : (outsAt0 m c t.val t.isLt).2.2.1 = projRows (m ((c.tc : Thread nD τ).loc main_arg0)) (m ((c.tc : Thread nD τ).loc main_arg3)) (m ((c.tc : Thread nD τ).loc main_arg4)) (entryOf t.val t.isLt) := congrArg (fun p => p.2.1) hs
  have hv : (outsAt0 m c t.val t.isLt).2.2.2 = projRows (m ((c.tc : Thread nD τ).loc main_arg0)) (m ((c.tc : Thread nD τ).loc main_arg5)) (m ((c.tc : Thread nD τ).loc main_arg6)) (entryOf t.val t.isLt) := congrArg (fun p => p.2.2) hs
  refine (congrFun (tile_eq m c t) _).trans ?_
  rw [hq, hk, hv]
  refine (pay5_apply _ _ _ r d).trans ?_
  unfold Cert.Attention.outAt
  have e1 : (fun d' : Fin 64 => qRows (F := Ideal) (grid0.coords t) (projRows (m ((c.tc : Thread nD τ).loc main_arg0)) (m ((c.tc : Thread nD τ).loc main_arg1)) (m ((c.tc : Thread nD τ).loc main_arg2)) (entryOf t.val t.isLt)) (ix2 r d'))
      = Cert.Attention.proj (m ((c.tc : Thread nD τ).loc main_arg0)) (m ((c.tc : Thread nD τ).loc main_arg1)) (m ((c.tc : Thread nD τ).loc main_arg2)) (entryOf t.val t.isLt)
          (⟨512 * (t.val % 8) + r.val, by have := r.isLt; omega⟩ : Fin 4096) :=
    funext fun d' => (qRows_apply _ _ (t.val % 8) (coords_eq t).2 r d' (by have := r.isLt; omega)).trans (projRows_ix2 _ _ _ _ _ d')
  rw [e1]
  rfl

/-- After the run the result array is the specification's function of the seven arguments. -/
theorem final (c : Dev nD) :
    (dats m 0 c).arrAt 3 cfg0.N = Cert.Attention.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  Layout.arr_of_blocks (dats m 0 c) _ (fun t r d => by
    rw [after0_3]
    exact tile_apply m c t r d)

/-- The program's value: @main terminates, leaves the specification's function of the seven arguments in the result
    array, and leaves the seven arguments as launched. -/
theorem value_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = Cert.Attention.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.KernelIdeal.Val

end
-- ==== Proof.RefIsAttention.lean ====
/-
  The reference program's result, read index by index, is the attention function of the specification.

  The reference computes, for a batch entry n, three projections q, k, v of the embedding (a contraction over the 768
  input features plus a bias broadcast along the batch and the positions), the scores q·kᵀ scaled by 1/8, the row maximum
  (a fold of max from −∞ over the key positions, followed by one more max against −∞, which changes nothing), the
  exponentials of the shifted scores, their row sum (a sum started from the zero word), the quotient, and the
  contraction of the weights against v over the key positions. Each stage is read at literal coordinates
  (n, s, d) or (n, s, t); the two broadcasts that turn a row quantity [n, s] into [n, s, t] read it back at (n, s).
-/
import proofs.«176549_j33784212751011_2_alg».proof.Proof.Gen.ReferenceIdeal.Read
import proofs.«176549_j33784212751011_2_alg».proof.Proof.AttentionSpec
import Idealize.ShloMosaic.Lib.ValueIdx
import Idealize.ShloMosaic.Lib.Pipeline.Value
import Idealize.ShloMosaic.PureOps.Ideal.Laws

noncomputable section

namespace Cert.RefAttention

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## Where each stage reads its operands, at literal coordinates -/

theorem lidx_v0 (n : Fin 16) (s : Fin 4096) (d : Fin 64) (e : Fin 768) : lidx_main_v0 (ix3 n s d) e = ix3 n s e :=
  funext fun a => Fin.ext (by match a with | ⟨0, _⟩ => rfl | ⟨1, _⟩ => rfl | ⟨2, _⟩ => rfl)
theorem ridx_v0 (n : Fin 16) (s : Fin 4096) (d : Fin 64) (e : Fin 768) : ridx_main_v0 (ix3 n s d) e = ix2 d e :=
  funext fun a => Fin.ext (by match a with | ⟨0, _⟩ => rfl | ⟨1, _⟩ => rfl)
theorem lidx_v4 (n : Fin 16) (s : Fin 4096) (d : Fin 64) (e : Fin 768) : lidx_main_v4 (ix3 n s d) e = ix3 n s e :=
  funext fun a => Fin.ext (by match a with | ⟨0, _⟩ => rfl | ⟨1, _⟩ => rfl | ⟨2, _⟩ => rfl)
theorem ridx_v4 (n : Fin 16) (s : Fin 4096) (d : Fin 64) (e : Fin 768) : ridx_main_v4 (ix3 n s d) e = ix2 d e :=
  funext fun a => Fin.ext (by match a with | ⟨0, _⟩ => rfl | ⟨1, _⟩ => rfl)
theorem lidx_v8 (n : Fin 16) (s : Fin 4096) (d : Fin 64) (e : Fin 768) : lidx_main_v8 (ix3 n s d) e = ix3 n s e :=
  funext fun a => Fin.ext (by match a with | ⟨0, _⟩ => rfl | ⟨1, _⟩ => rfl | ⟨2, _⟩ => rfl)
theorem ridx_v8 (n : Fin 16) (s : Fin 4096) (d : Fin 64) (e : Fin 768) : ridx_main_v8 (ix3 n s d) e = ix2 d e :=
  funext fun a => Fin.ext (by match a with | ⟨0, _⟩ => rfl | ⟨1, _⟩ => rfl)
/-- The bias, broadcast to [1, 1, 64] and then to [16, 4096, 64], is read at its feature. -/
theorem idx_v1_v2 (n : Fin 16) (s : Fin 4096) (d : Fin 64) : idx_main_v1 (idx_main_v2 (ix3 n s d)) = ix1 d :=
  funext fun a => Fin.ext (by match a with | ⟨0, _⟩ => rfl)
theorem idx_v5_v6 (n : Fin 16) (s : Fin 4096) (d : Fin 64) : idx_main_v5 (idx_main_v6 (ix3 n s d)) = ix1 d :=
  funext fun a => Fin.ext (by match a with | ⟨0, _⟩ => rfl)
theorem idx_v9_v10 (n : Fin 16) (s : Fin 4096) (d : Fin 64) : idx_main_v9 (idx_main_v10 (ix3 n s d)) = ix1 d :=
  funext fun a => Fin.ext (by match a with | ⟨0, _⟩ => rfl)
theorem lidx_v12 (n : Fin 16) (s t : Fin 4096) (d : Fin 64) : lidx_main_v12 (ix3 n s t) d = ix3 n s d :=
  funext fun a => Fin.ext (by match a with | ⟨0, _⟩ => rfl | ⟨1, _⟩ => rfl | ⟨2, _⟩ => rfl)
theorem ridx_v12 (n : Fin 16) (s t : Fin 4096) (d : Fin 64) : ridx_main_v12 (ix3 n s t) d = ix3 n t d :=
  funext fun a => Fin.ext (by match a with | ⟨0, _⟩ => rfl | ⟨1, _⟩ => rfl | ⟨2, _⟩ => rfl)
/-- A row quantity [n, s], broadcast to [n, s, 1] and then along the key positions, is read back at (n, s). -/
theorem idx_v18_v19 (n : Fin 16) (s t : Fin 4096) : idx_main_v18 (idx_main_v19 (ix3 n s t)) = ix2 n s :=
  funext fun a => Fin.ext (by match a with | ⟨0, _⟩ => rfl | ⟨1, _⟩ => rfl)
theorem idx_v23_v24 (n : Fin 16) (s t : Fin 4096) : idx_main_v23 (idx_main_v24 (ix3 n s t)) = ix2 n s :=
  funext fun a => Fin.ext (by match a with | ⟨0, _⟩ => rfl | ⟨1, _⟩ => rfl)
theorem idx_v22 (n : Fin 16) (s t : Fin 4096) : idx_main_v22 (ix2 n s) t = ix3 n s t :=
  funext fun a => Fin.ext (by match a with | ⟨0, _⟩ => rfl | ⟨1, _⟩ => rfl | ⟨2, _⟩ => rfl)
theorem lidx_v26 (n : Fin 16) (s : Fin 4096) (d : Fin 64) (t : Fin 4096) : lidx_main_v26 (ix3 n s d) t = ix3 n s t :=
  funext fun a => Fin.ext (by match a with | ⟨0, _⟩ => rfl | ⟨1, _⟩ => rfl | ⟨2, _⟩ => rfl)
theorem ridx_v26 (n : Fin 16) (s : Fin 4096) (d : Fin 64) (t : Fin 4096) : ridx_main_v26 (ix3 n s d) t = ix3 n t d :=
  funext fun a => Fin.ext (by match a with | ⟨0, _⟩ => rfl | ⟨1, _⟩ => rfl | ⟨2, _⟩ => rfl)

variable (x0 : (⟨S16x4096x768, .f32⟩ : BufTy).Contents (Elt Ideal))
  (x1 x3 x5 : (⟨S64x768, .f32⟩ : BufTy).Contents (Elt Ideal)) (x2 x4 x6 : (⟨S64, .f32⟩ : BufTy).Contents (Elt Ideal))

/-! ## The three projections -/

theorem q_apply (n : Fin 16) (s : Fin 4096) (d : Fin 64) :
    val_main_v3 (F := Ideal) x0 x1 x2 (ix3 n s d) = Attention.proj x0 x1 x2 n s d := by
  rw [val_main_v3_apply, val_main_v0_apply, val_main_v2_apply, val_main_v1_apply]
  simp only [Ideal.addf_def, lidx_v0, ridx_v0, idx_v1_v2]
  rfl

theorem k_apply (n : Fin 16) (s : Fin 4096) (d : Fin 64) :
    val_main_v7 (F := Ideal) x0 x3 x4 (ix3 n s d) = Attention.proj x0 x3 x4 n s d := by
  rw [val_main_v7_apply, val_main_v4_apply, val_main_v6_apply, val_main_v5_apply]
  simp only [Ideal.addf_def, lidx_v4, ridx_v4, idx_v5_v6]
  rfl

theorem v_apply (n : Fin 16) (s : Fin 4096) (d : Fin 64) :
    val_main_v11 (F := Ideal) x0 x5 x6 (ix3 n s d) = Attention.proj x0 x5 x6 n s d := by
  rw [val_main_v11_apply, val_main_v8_apply, val_main_v10_apply, val_main_v9_apply]
  simp only [Ideal.addf_def, lidx_v8, ridx_v8, idx_v9_v10]
  rfl

/-! ## The scaled scores -/

theorem score_apply (n : Fin 16) (s t : Fin 4096) :
    val_main_v14 (F := Ideal) x0 x1 x2 x3 x4 (ix3 n s t)
      = Attention.scoreRow (Attention.proj x0 x1 x2 n s) (Attention.proj x0 x3 x4 n) t := by
  rw [val_main_v14_apply, val_main_v12_apply, val_main_v13_apply, val_main_cst_apply]
  simp only [Ideal.mulf_def, Ideal.ofBits_def, lidx_v12, ridx_v12, q_apply, k_apply]
  rfl

/-! ## The row maximum -/

/-- The row index (n, s) with the key position t put back on the reduced axis is (n, s, t). -/
theorem lift_ix2 (h : S16x4096x4096.Reduces [2] S16x4096) (n : Fin 16) (s : Fin 4096) (t : Fin (S16x4096x4096.size 2)) :
    h.lift (ix2 n s) t = ix3 n s (⟨t.val, t.isLt⟩ : Fin 4096) := by
  funext c; apply Fin.ext
  fin_cases c <;> rfl

/-- The maximum of anything against −∞ is that thing. -/
theorem max_negInf (z : EReal) : max (Ideal.ofBits .f32 0xFF800000#32) z = z := by
  simp [Ideal.ofBits, Ideal.ieee]

/-- The reference's row maximum — the fold from −∞ over the key positions, then one more maximum against a broadcast
    −∞ — is the fold. -/
theorem rowmax_apply (n : Fin 16) (s : Fin 4096) :
    val_main_v17 (F := Ideal) x0 x1 x2 x3 x4 (ix2 n s)
      = Attention.rowMax fun t => val_main_v14 (F := Ideal) x0 x1 x2 x3 x4 (ix3 n s t) := by
  rw [val_main_v17_apply, val_main_v16_apply, val_main_cst_1_apply]
  unfold val_main_v15
  generalize val_main_v14 (F := Ideal) x0 x1 x2 x3 x4 = y
  have h : S16x4096x4096.Reduces [2] S16x4096 := by decide
  have e := Host.reduce_eq_fold_single (FloatOps.maximumf (F := Ideal) (φ := .f32)) y (val_main_cst_0 (F := Ideal))
    reducesTo_S16x4096x4096_S16x4096_d2 h h_S_ (ix2 n s)
  refine (congrArg (max (Ideal.ofBits .f32 0xFF800000#32)) e).trans ?_
  refine (max_negInf _).trans ?_
  have hf : (y ∘ h.lift (ix2 n s)) = fun t : Fin 4096 => y (ix3 n s t) := funext fun t => congrArg y (lift_ix2 h n s t)
  exact congrArg (fun f => Finset.fold max (Ideal.ofBits .f32 0xFF800000#32) f (Finset.univ : Finset (Fin 4096))) hf

/-! ## The exponentials, their row sum, the weights -/

theorem exp_apply (n : Fin 16) (s t : Fin 4096) :
    val_main_v21 (F := Ideal) x0 x1 x2 x3 x4 (ix3 n s t)
      = Ideal.exp (val_main_v14 (F := Ideal) x0 x1 x2 x3 x4 (ix3 n s t) - val_main_v17 (F := Ideal) x0 x1 x2 x3 x4 (ix2 n s)) := by
  rw [val_main_v21_apply, val_main_v20_apply, val_main_v19_apply, val_main_v18_apply, idx_v18_v19]
  simp only [Ideal.hostUnary_exp_def, Ideal.subf_def]

/-- The row sum starts from the zero word, which is 0. -/
theorem rowsum_apply (n : Fin 16) (s : Fin 4096) :
    val_main_v22 (F := Ideal) x0 x1 x2 x3 x4 (ix2 n s) = ∑ t : Fin 4096, val_main_v21 (F := Ideal) x0 x1 x2 x3 x4 (ix3 n s t) := by
  rw [val_main_v22_apply, val_main_cst_2_apply]
  simp only [Ideal.ofBits_def, Ideal.ofBits_zero_f32, zero_add, idx_v22]

theorem weight_apply (n : Fin 16) (s t : Fin 4096) :
    val_main_v25 (F := Ideal) x0 x1 x2 x3 x4 (ix3 n s t)
      = Ideal.div (val_main_v21 (F := Ideal) x0 x1 x2 x3 x4 (ix3 n s t)) (val_main_v22 (F := Ideal) x0 x1 x2 x3 x4 (ix2 n s)) := by
  rw [val_main_v25_apply, val_main_v24_apply, val_main_v23_apply, idx_v23_v24]
  simp only [Ideal.hostDivf_def]

/-- A softmax weight of the reference is the specification's weight of the row of scores. -/
theorem weight_eq (n : Fin 16) (s t : Fin 4096) :
    val_main_v25 (F := Ideal) x0 x1 x2 x3 x4 (ix3 n s t)
      = Attention.weight (Attention.scoreRow (Attention.proj x0 x1 x2 n s) (Attention.proj x0 x3 x4 n)) t := by
  rw [weight_apply, rowsum_apply]
  simp only [exp_apply, rowmax_apply, score_apply]
  rfl

/-! ## The result -/

theorem out_apply (n : Fin 16) (s : Fin 4096) (d : Fin 64) :
    val_main_v26 (F := Ideal) x0 x1 x2 x3 x4 x5 x6 (ix3 n s d) = Attention.outAt x0 x1 x2 x3 x4 x5 x6 n s d := by
  rw [val_main_v26_apply]
  simp only [lidx_v26, ridx_v26, weight_eq, v_apply]
  rfl

/-- The reference's last stage is the specification's function of the seven arguments. -/
theorem val_eq : val_main_v26 (F := Ideal) x0 x1 x2 x3 x4 x5 x6 = Attention.out x0 x1 x2 x3 x4 x5 x6 := by
  funext i
  obtain ⟨n, s, d, rfl⟩ : ∃ (n : Fin 16) (s : Fin 4096) (d : Fin 64), i = ix3 n s d := ⟨i 0, i 1, i 2, eq_ix3 i⟩
  rw [out_apply, Attention.out_ix3]

/-- The reference program's result term is the specification at the arguments' launch contents. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v26 (F := Ideal) m c
      = Attention.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v26_eq m c).trans (val_eq _ _ _ _ _ _ _)

end Cert.RefAttention

end
-- ==== Proof.lean ====
/-
  Fused single-head attention on a TensorCore against its jnp reference: the certificate's five claims.

  Both programs compute, for each of 16 batch entries, out = softmax((x·Wqᵀ + bq)(x·Wkᵀ + bk)ᵀ / 8) (x·Wvᵀ + bv) over
  4096 positions, 768 embedding features and 64 projected features. The kernel concatenates the three weights into one
  [768, 192] matrix on the host, projects a whole batch entry at the first of its eight query tiles into three scratch
  buffers, and computes one [512, 64] tile of the result per grid point from them; the reference is three einsums, a
  softmax along the last axis and one more einsum. Read over the extended reals, where a change of float format is
  the identity and a matrix product into a zero accumulator is a finite sum, the two are the same function of the
  seven arguments index by index (Proof/AttentionSpec.lean): the same scale 1/8, the same row maximum folded from −∞,
  the same exponentials, the same quotient, the same sums — only tiled and grouped differently — so no finiteness of
  the inputs is used.

  The three frames: each kernel program's by the run of its region under an invariant that tracks the three scratch
  buffers from point to point (Proof/KernelFrame, Proof/KernelIdealFrame); the reference's by its run with the result
  dropped. The idealization rewrote nothing, so what it must preserve is trivial. The algebraic claim pairs the
  kernel's value (Proof/KernelIdealValue: the result array is the specification's function of the arguments) with
  the reference's (Proof/RefIsAttention: so is the reference's result term), from memories agreeing on the arguments.
-/
import proofs.«176549_j33784212751011_2_alg».proof.Defs
import proofs.«176549_j33784212751011_2_alg».proof.Proof.Gen.Kernel
import proofs.«176549_j33784212751011_2_alg».proof.Proof.Gen.KernelIdeal
import proofs.«176549_j33784212751011_2_alg».proof.Proof.Gen.ReferenceIdeal
import proofs.«176549_j33784212751011_2_alg».proof.Proof.Gen.Pre_finite_inputs
import proofs.«176549_j33784212751011_2_alg».proof.Proof.Gen.ReferenceIdeal.Run
import proofs.«176549_j33784212751011_2_alg».proof.Proof.KernelFrame.Frame
import proofs.«176549_j33784212751011_2_alg».proof.Proof.KernelIdealFrame.Frame
import proofs.«176549_j33784212751011_2_alg».proof.Proof.KernelIdealValue.Final
import proofs.«176549_j33784212751011_2_alg».proof.Proof.RefIsAttention
import proofs.«176549_j33784212751011_2_alg».proof.Proof.AttentionSpec
import Idealize.ShloMosaic.Adequacy
import Idealize.ShloMosaic.Init

noncomputable section

namespace Cert.Proof

open Idealize.ShloMosaic Idealize.ShloMosaic.TcCoe Idealize.SL.Sem

/-- The word-level kernel program runs to its end without a fault and leaves its arguments as launched. -/
theorem frame_kernel : Cert.frame_Kernel := fun m ρ _ => Cert.Kernel.Fr.frame (F := Bits) m ρ

/-- So does its idealization. -/
theorem frame_kernelIdeal : Cert.frame_KernelIdeal := fun m ρ _ => Cert.KernelIdeal.Fr.frame (F := Ideal) m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories agreeing on the seven arguments both idealized programs end with the result array at the attention
    function of those arguments: the kernel's by its value run, the reference's result term by `res_eq`, the
    arguments' agreement rewritten. -/
theorem algebraic : Cert.algebraic_KernelIdeal_ReferenceIdeal := by
  intro m ρ m' ρ' _ hagree
  refine ⟨fun c => Cert.Attention.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.Val.value_run m ρ, ?_⟩
  refine (θ_run Cert.ReferenceIdeal.defs _ _).mono (fun _ h c => ⟨(h c).1.trans ?_, (h c).2⟩)
    (Cert.ReferenceIdeal.Value.run (F := Ideal) m' ρ')
  rw [Cert.RefAttention.res_eq, (hagree c).1, (hagree c).2.1, (hagree c).2.2.1, (hagree c).2.2.2.1, (hagree c).2.2.2.2.1,
    (hagree c).2.2.2.2.2.1, (hagree c).2.2.2.2.2.2]

/-- The certificate: the programs' stated side conditions hold, and the five claims with them. -/
theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
